-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S3x3 : Shape := ⟨2, ![3, 3]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S3x3 : S_.BroadcastsInDim S3x3 (![] : Fin 0 → Fin S3x3.rank)
  reducesTo_S3x3_S_d0_1 : S3x3.ReducesTo [0, 1] S_

variable [Facts]

def fn_part2 {F : FTy → Type} [FloatOps F] (main_arg7 : FVec F S128x1 .f32) (main_arg8 : FVec F S128x1 .f32) (main_arg9 : FVec F S3x3 .f32) (main_v33 : IVec S_ 1) : IVec S_ 1 :=
  let main_v34 : FVec F S128x1 .f32 := Host.absf main_arg7
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S3x3 .f32 := Host.absf main_arg9
  let main_cst_16 : FVec F S_ .f32 := constant S_ .f32 0x7F800000#32
  let main_v45 : FVec F S3x3 .f32 := broadcastInDim S3x3 ![] bcast_S_S3x3 main_cst_16
  let main_v46 : IVec S3x3 1 := cmpf .olt main_v44 main_v45
  let main_c_17 : IVec S_ 1 := constantI S_ 1 1#1
  let main_v47 : IVec S_ 1 := (fun x v => Host.reduce IntOp.andi x v reducesTo_S3x3_S_d0_1 h_S_) main_v46 main_c_17
  let main_v48 : IVec S_ 1 := andi main_v43 main_v47
  main_v48

def fn_part1 {F : FTy → Type} [FloatOps F] (main_arg4 : FVec F S128x128 .f32) (main_arg5 : FVec F S128x128 .f32) (main_arg6 : FVec F S128x1 .f32) (main_arg7 : FVec F S128x1 .f32) (main_arg8 : FVec F S128x1 .f32) (main_arg9 : FVec F S3x3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128x128 .f32) (main_arg5 : FVec F S128x128 .f32) (main_arg6 : FVec F S128x1 .f32) (main_arg7 : FVec F S128x1 .f32) (main_arg8 : FVec F S128x1 .f32) (main_arg9 : FVec F S3x3 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S3x3 : Shape := ⟨2, ![3, 3]⟩
abbrev S_ : Shape := ⟨0, ![]⟩
abbrev S128x3 : Shape := ⟨2, ![128, 3]⟩
abbrev S40x10000 : Shape := ⟨2, ![40, 10000]⟩
abbrev S200x128 : Shape := ⟨2, ![200, 128]⟩
abbrev S40x128 : Shape := ⟨2, ![40, 128]⟩
abbrev S200x3 : Shape := ⟨2, ![200, 3]⟩
abbrev S200 : Shape := ⟨1, ![200]⟩
abbrev S200x1 : Shape := ⟨2, ![200, 1]⟩

abbrev nBuf : Space → Nat
  | .hbm => 16
  | .vmem => 32
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S3x3, .f32⟩
  | .hbm, ⟨10, _⟩ => ⟨S_, .f32⟩
  | .hbm, ⟨11, _⟩ => ⟨S128x1, .f32⟩
  | .hbm, ⟨12, _⟩ => ⟨S128x3, .f32⟩
  | .hbm, ⟨13, _⟩ => ⟨S128x3, .f32⟩
  | .hbm, ⟨14, _⟩ => ⟨S128x3, .f32⟩
  | .hbm, ⟨15, _⟩ => ⟨S10000x128, .f32⟩
  | .local _ .vmem, ⟨0, _⟩ => ⟨S40x10000, .f32⟩
  | .local _ .vmem, ⟨1, _⟩ => ⟨S40x10000, .f32⟩
  | .local _ .vmem, ⟨2, _⟩ => ⟨S40x10000, .f32⟩
  | .local _ .vmem, ⟨3, _⟩ => ⟨S40x10000, .f32⟩
  | .local _ .vmem, ⟨4, _⟩ => ⟨S40x10000, .f32⟩
  | .local _ .vmem, ⟨5, _⟩ => ⟨S40x10000, .f32⟩
  | .local _ .vmem, ⟨6, _⟩ => ⟨S40x10000, .f32⟩
  | .local _ .vmem, ⟨7, _⟩ => ⟨S40x10000, .f32⟩
  | .local _ .vmem, ⟨8, _⟩ => ⟨S40x10000, .f32⟩
  | .local _ .vmem, ⟨9, _⟩ => ⟨S40x10000, .f32⟩
  | .local _ .vmem, ⟨10, _⟩ => ⟨S40x10000, .f32⟩
  | .local _ .vmem, ⟨11, _⟩ => ⟨S40x10000, .f32⟩
  | .local _ .vmem, ⟨12, _⟩ => ⟨S40x10000, .f32⟩
  | .local _ .vmem, ⟨13, _⟩ => ⟨S40x10000, .f32⟩
  | .local _ .vmem, ⟨14, _⟩ => ⟨S40x10000, .f32⟩
  | .local _ .vmem, ⟨15, _⟩ => ⟨S40x10000, .f32⟩
  | .local _ .vmem, ⟨16, _⟩ => ⟨S40x10000, .f32⟩
  | .local _ .vmem, ⟨17, _⟩ => ⟨S40x10000, .f32⟩
  | .local _ .vmem, ⟨18, _⟩ => ⟨S40x10000, .f32⟩
  | .local _ .vmem, ⟨19, _⟩ => ⟨S40x10000, .f32⟩
  | .local _ .vmem, ⟨20, _⟩ => ⟨S10000x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x3, .f32⟩
  | .local _ .vmem, ⟨25, _⟩ => ⟨S128x3, .f32⟩
  | .local _ .vmem, ⟨26, _⟩ => ⟨S128x3, .f32⟩
  | .local _ .vmem, ⟨27, _⟩ => ⟨S3x3, .f32⟩
  | .local _ .vmem, ⟨28, _⟩ => ⟨S200x128, .f32⟩
  | .local _ .vmem, ⟨29, _⟩ => ⟨S200x128, .f32⟩
  | .local _ .vmem, ⟨30, _⟩ => ⟨S10000x128, .f32⟩
  | .local _ .vmem, ⟨31, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg18_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem18_1 : DmaSem sig := 29

abbrev nD : Nat := 1
abbrev τ : Topo := Topo.v7x

variable {F : FTy → Type} [FloatOps F]

abbrev grid0 : Pipeline.Grid := ⟨1, ![50], ![false]⟩

def k0_off1 (i : grid0.Coords) : Fin 2 → Nat :=
  let arg0 : BitVec 32 := BitVec.ofNat 32 (i 0).val
  let c200_i32 : BitVec 32 := 200#32
  let v31 : BitVec 32 := Scalar.muli arg0 c200_i32
  let v32 : Index := Scalar.indexCast v31
  let c0_35 : Index := 0#32
  ![v32.toNat, 0]
def cc0_transform_0 (i : grid0.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let c5_i32 : BitVec 32 := 5#32
  let v0 : BitVec 32 := Scalar.muli c5_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c5_i32 : BitVec 32 := 5#32
  let v0 : BitVec 32 := Scalar.muli c5_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c5_i32 : BitVec 32 := 5#32
  let v0 : BitVec 32 := Scalar.muli c5_i32 arg0
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c5_i32 : BitVec 32 := 5#32
  let v0 : BitVec 32 := Scalar.muli c5_i32 arg0
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let c5_i32 : BitVec 32 := 5#32
  let v0 : BitVec 32 := Scalar.muli c5_i32 arg0
  let c4_i32 : BitVec 32 := 4#32
  let v1 : BitVec 32 := Scalar.addi v0 c4_i32
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S40x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S40x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S40x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S40x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S40x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S40x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S40x10000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S40x10000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S40x10000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S10000x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x3 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x3 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x3 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3x3 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S200x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

class Facts₀ : Prop where
  bcast_S_S128x1 : S_.BroadcastsInDim S128x1 (![] : Fin 0 → Fin S128x1.rank)
  concatenates_S128x1_S128x1_S128x1_S128x3_d1 : Shape.Concatenates [S128x1, S128x1, S128x1] S128x3 1
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S40x10000_S40x10000_0_0 : ∀ a, (![0, 0] : Fin 2 → Nat) a + S40x10000.size a ≤ S40x10000.size a
  h_S40x10000 : 0 < S40x10000.numel
  concatenates_S40x128_S40x128_S40x128_S40x128_S40x128_S200x128_d0 : Shape.Concatenates [S40x128, S40x128, S40x128, S40x128, S40x128] S200x128 0
  h_S200x128 : 0 < S200x128.numel
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S3x3_S3x3_0_0 : ∀ a, (![0, 0] : Fin 2 → Nat) a + S3x3.size a ≤ S3x3.size a
  h_S3x3 : 0 < S3x3.numel
  reduces_S200x3_S200 : S200x3.Reduces [1] S200
  shapeCasts_S200_S200x1 : S200.ShapeCasts S200x1
  broadcasts_S200x1_S200x3 : S200x1.Broadcasts S200x3
  slices_S200x3_o0_0_S200x1 : S200x3.Slices ![0, 0] S200x1
  broadcasts_S200x1_S200x128 : S200x1.Broadcasts S200x128
  slices_S200x3_o0_1_S200x1 : S200x3.Slices ![0, 1] S200x1
  slices_S200x3_o0_2_S200x1 : S200x3.Slices ![0, 2] S200x1
  inb_S200x128_S200x128_0_0 : ∀ a, (![0, 0] : Fin 2 → Nat) a + S200x128.size a ≤ S200x128.size a
  dot_S10000x128_S128x128_S10000x128_1_0_0_1_n_n_wf : DotDims.WF S10000x128 S128x128 S10000x128 [1] [0] [0] [1] [] []
  dot_S40x10000_S10000x128_S40x128_1_0_0_1_n_n_wf : DotDims.WF S40x10000 S10000x128 S40x128 [1] [0] [0] [1] [] []
  dot_S200x128_S128x128_S200x128_1_0_0_1_n_n_wf : DotDims.WF S200x128 S128x128 S200x128 [1] [0] [0] [1] [] []
  dot_S200x128_S128x3_S200x3_1_0_0_1_n_n_wf : DotDims.WF S200x128 S128x3 S200x3 [1] [0] [0] [1] [] []
  dot_S200x3_S3x3_S200x3_1_0_0_1_n_n_wf : DotDims.WF S200x3 S3x3 S200x3 [1] [0] [0] [1] [] []
  hrank0 : 0 < grid0.rank
  k0_off1_inb : ∀ i : grid0.Coords, ∀ a, (k0_off1 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S40x10000.size a ≤ S10000x10000.size a
  hwx0_0 : ∀ i : grid0.Coords, EltTy.bits .f32 = 32 ∨ (Rect.block (s := S10000x10000) S40x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x10000.size a ≤ S10000x10000.size a
  hwx0_1 : ∀ i : grid0.Coords, EltTy.bits .f32 = 32 ∨ (Rect.block (s := S10000x10000) S40x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S40x10000.size a ≤ S10000x10000.size a
  hwx0_2 : ∀ i : grid0.Coords, EltTy.bits .f32 = 32 ∨ (Rect.block (s := S10000x10000) S40x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S40x10000.size a ≤ S10000x10000.size a
  hwx0_3 : ∀ i : grid0.Coords, EltTy.bits .f32 = 32 ∨ (Rect.block (s := S10000x10000) S40x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S40x10000.size a ≤ S10000x10000.size a
  hwx0_4 : ∀ i : grid0.Coords, EltTy.bits .f32 = 32 ∨ (Rect.block (s := S10000x10000) S40x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S40x10000.size a ≤ S10000x10000.size a
  hwx0_5 : ∀ i : grid0.Coords, EltTy.bits .f32 = 32 ∨ (Rect.block (s := S10000x10000) S40x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S40x10000.size a ≤ S10000x10000.size a
  hwx0_6 : ∀ i : grid0.Coords, EltTy.bits .f32 = 32 ∨ (Rect.block (s := S10000x10000) S40x10000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S40x10000.size a ≤ S10000x10000.size a
  hwx0_7 : ∀ i : grid0.Coords, EltTy.bits .f32 = 32 ∨ (Rect.block (s := S10000x10000) S40x10000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S40x10000.size a ≤ S10000x10000.size a
  hwx0_8 : ∀ i : grid0.Coords, EltTy.bits .f32 = 32 ∨ (Rect.block (s := S10000x10000) S40x10000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S40x10000.size a ≤ S10000x10000.size a
  hwx0_9 : ∀ i : grid0.Coords, EltTy.bits .f32 = 32 ∨ (Rect.block (s := S10000x10000) S40x10000.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S10000x128.size a ≤ S10000x128.size a
  hwx0_10 : ∀ i : grid0.Coords, EltTy.bits .f32 = 32 ∨ (Rect.block (s := S10000x128) S10000x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S128x128.size a
  hwx0_12 : ∀ i : grid0.Coords, EltTy.bits .f32 = 32 ∨ (Rect.block (s := S128x128) S128x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .f32 = 32 ∨ (Rect.block (s := S128x128) S128x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x3.size a ≤ S128x3.size a
  hwx0_14 : ∀ i : grid0.Coords, EltTy.bits .f32 = 32 ∨ (Rect.block (s := S128x3) S128x3.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x3.size a ≤ S128x3.size a
  hwx0_15 : ∀ i : grid0.Coords, EltTy.bits .f32 = 32 ∨ (Rect.block (s := S128x3) S128x3.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128x3.size a ≤ S128x3.size a
  hwx0_16 : ∀ i : grid0.Coords, EltTy.bits .f32 = 32 ∨ (Rect.block (s := S128x3) S128x3.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S3x3.size a ≤ S3x3.size a
  hwx0_17 : ∀ i : grid0.Coords, EltTy.bits .f32 = 32 ∨ (Rect.block (s := S3x3) S3x3.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S200x128.size a ≤ S10000x128.size a
  hwx0_18 : ∀ i : grid0.Coords, EltTy.bits .f32 = 32 ∨ (Rect.block (s := S10000x128) S200x128.size (cc0_transform_18 i) (hinb0_18 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S40x10000_S10000x128_S40x128_1_0_0_1_n_n : DotDims S40x10000 S10000x128 S40x128 where
  lhsContracting := [1]
  rhsContracting := [0]
  lhsNonContracting := [0]
  rhsNonContracting := [1]
  lhsBatch := []
  rhsBatch := []
  wf := dot_S40x10000_S10000x128_S40x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf
def dot_S200x128_S128x3_S200x3_1_0_0_1_n_n : DotDims S200x128 S128x3 S200x3 where
  lhsContracting := [1]
  rhsContracting := [0]
  lhsNonContracting := [0]
  rhsNonContracting := [1]
  lhsBatch := []
  rhsBatch := []
  wf := dot_S200x128_S128x3_S200x3_1_0_0_1_n_n_wf
def dot_S200x3_S3x3_S200x3_1_0_0_1_n_n : DotDims S200x3 S3x3 S200x3 where
  lhsContracting := [1]
  rhsContracting := [0]
  lhsNonContracting := [0]
  rhsNonContracting := [1]
  lhsBatch := []
  rhsBatch := []
  wf := dot_S200x3_S3x3_S200x3_1_0_0_1_n_n_wf

abbrev win0_0 : Pipeline.Window sig grid0 :=
  Pipeline.Window.ofSpec (Memref.whole main_arg1) S40x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S40x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S40x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S40x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S40x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S40x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S40x10000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S40x10000.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg2) S40x10000.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg2) S40x10000.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg0) S10000x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg3) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg4) S128x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg5) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v1) S128x3.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v2) S128x3.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v3) S128x3.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg9) S3x3.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v4) S200x128.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128x1 : Shape := ⟨2, ![128, 1]⟩
abbrev S3x3 : Shape := ⟨2, ![3, 3]⟩
abbrev S_ : Shape := ⟨0, ![]⟩
abbrev S10000x1 : Shape := ⟨2, ![10000, 1]⟩
abbrev S10000x3 : Shape := ⟨2, ![10000, 3]⟩
abbrev S10000 : Shape := ⟨1, ![10000]⟩

abbrev nBuf : Space → Nat
  | .hbm => 68
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x1, .f32⟩
  | .hbm, ⟨7, _⟩ => ⟨S128x1, .f32⟩
  | .hbm, ⟨8, _⟩ => ⟨S128x1, .f32⟩
  | .hbm, ⟨9, _⟩ => ⟨S3x3, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S10000x128, .f32⟩
  | .hbm, ⟨17, _⟩ => ⟨S_, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000x128, .f32⟩
  | .hbm, ⟨23, _⟩ => ⟨S10000x128, .f32⟩
  | .hbm, ⟨24, _⟩ => ⟨S10000x1, .f32⟩
  | .hbm, ⟨25, _⟩ => ⟨S10000x1, .f32⟩
  | .hbm, ⟨26, _⟩ => ⟨S10000x1, .f32⟩
  | .hbm, ⟨27, _⟩ => ⟨S10000x3, .f32⟩
  | .hbm, ⟨28, _⟩ => ⟨S10000x3, .f32⟩
  | .hbm, ⟨29, _⟩ => ⟨S10000x3, .f32⟩
  | .hbm, ⟨30, _⟩ => ⟨S_, .f32⟩
  | .hbm, ⟨31, _⟩ => ⟨S10000x3, .f32⟩
  | .hbm, ⟨32, _⟩ => ⟨S10000x3, .f32⟩
  | .hbm, ⟨33, _⟩ => ⟨S_, .f32⟩
  | .hbm, ⟨34, _⟩ => ⟨S10000x3, .f32⟩
  | .hbm, ⟨35, _⟩ => ⟨S10000x3, .f32⟩
  | .hbm, ⟨36, _⟩ => ⟨S10000x3, .f32⟩
  | .hbm, ⟨37, _⟩ => ⟨S_, .f32⟩
  | .hbm, ⟨38, _⟩ => ⟨S10000x3, .f32⟩
  | .hbm, ⟨39, _⟩ => ⟨S10000x3, .f32⟩
  | .hbm, ⟨40, _⟩ => ⟨S_, .f32⟩
  | .hbm, ⟨41, _⟩ => ⟨S10000, .f32⟩
  | .hbm, ⟨42, _⟩ => ⟨S_, .f32⟩
  | .hbm, ⟨43, _⟩ => ⟨S10000, .f32⟩
  | .hbm, ⟨44, _⟩ => ⟨S10000, .f32⟩
  | .hbm, ⟨45, _⟩ => ⟨S10000x1, .f32⟩
  | .hbm, ⟨46, _⟩ => ⟨S10000x3, .f32⟩
  | .hbm, ⟨47, _⟩ => ⟨S10000x3, .f32⟩
  | .hbm, ⟨48, _⟩ => ⟨S10000x3, .f32⟩
  | .hbm, ⟨49, _⟩ => ⟨S_, .f32⟩
  | .hbm, ⟨50, _⟩ => ⟨S10000, .f32⟩
  | .hbm, ⟨51, _⟩ => ⟨S10000x1, .f32⟩
  | .hbm, ⟨52, _⟩ => ⟨S10000x3, .f32⟩
  | .hbm, ⟨53, _⟩ => ⟨S10000x3, .f32⟩
  | .hbm, ⟨54, _⟩ => ⟨S10000x1, .f32⟩
  | .hbm, ⟨55, _⟩ => ⟨S10000x1, .f32⟩
  | .hbm, ⟨56, _⟩ => ⟨S10000x1, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S10000x128, .f32⟩
  | .hbm, ⟨64, _⟩ => ⟨S10000x128, .f32⟩
  | .hbm, ⟨65, _⟩ => ⟨S_, .f32⟩
  | .hbm, ⟨66, _⟩ => ⟨S10000x128, .f32⟩
  | .hbm, ⟨67, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_call0_cst : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_cst : Ref sig .tc := ⟨.hbm, 17, rfl⟩
abbrev main_call1_v0 : Ref sig .tc := ⟨.hbm, 18, rfl⟩
abbrev main_v5 : Ref sig .tc := ⟨.hbm, 19, rfl⟩
abbrev main_v6 : Ref sig .tc := ⟨.hbm, 20, rfl⟩
abbrev main_call2_cst : Ref sig .tc := ⟨.hbm, 21, rfl⟩
abbrev main_call2_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_cst_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_1 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_4 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  concatenates_S10000x1_S10000x1_S10000x1_S10000x3_d1 : Shape.Concatenates [S10000x1, S10000x1, S10000x1] S10000x3 1
  bcast_S_S10000x3 : S_.BroadcastsInDim S10000x3 (![] : Fin 0 → Fin S10000x3.rank)
  reducesTo_S10000x3_S10000_d1 : S10000x3.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x3_0_1 : S10000x1.BroadcastsInDim S10000x3 (![0, 1] : Fin 2 → Fin S10000x3.rank)
  slices_S10000x3_S10000x1_0_0 : S10000x3.Slices ![0, 0] S10000x1
  slices_S10000x3_S10000x1_0_1 : S10000x3.Slices ![0, 1] S10000x1
  slices_S10000x3_S10000x1_0_2 : S10000x3.Slices ![0, 2] S10000x1
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x1_S10000x1_1_0_0_1_n_n_wf : DotDims.WF S10000x128 S128x1 S10000x1 [1] [0] [0] [1] [] []
  dot_S10000x3_S3x3_S10000x3_1_0_0_1_n_n_wf : DotDims.WF S10000x3 S3x3 S10000x3 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf
def dot_S10000x3_S3x3_S10000x3_1_0_0_1_n_n : DotDims S10000x3 S3x3 S10000x3 where
  lhsContracting := [1]
  rhsContracting := [0]
  lhsNonContracting := [0]
  rhsNonContracting := [1]
  lhsBatch := []
  rhsBatch := []
  wf := dot_S10000x3_S3x3_S10000x3_1_0_0_1_n_n_wf

class Facts : Prop extends Facts₀ where

variable [Facts]
-- ==== Proof.KRuns.lean ====
/-
  What the two frame proofs of this kernel share, and the kernel body run once per control case.

  The kernel's grid has 50 points. At point 0 the body first fills two scratch buffers with the
  projections x·W_low and x·W_high and then does what it does at every point: it reads the scratch
  buffers back, multiplies five row stripes of each adjacency matrix with them, and stores one
  block of 200 output rows. So there are two control cases: the first point (both scratch buffers
  stored whole, then read), and every later point (both scratch buffers only read, at what the
  first point left in them). Each run is stated on arbitrary whole staging memrefs holding
  arbitrary input blocks; the pieces each written buffer ends with are found by the run itself.
-/
import proofs.«129832_g4337916969350_cont_sun_m_394_15_alg».proof.Proof.Gen.Kernel.Launch
import proofs.«129832_g4337916969350_cont_sun_m_394_15_alg».proof.Proof.Gen.Kernel.Skeleton
import proofs.«129832_g4337916969350_cont_sun_m_394_15_alg».proof.Proof.Gen.Kernel.Points
import Idealize.ShloMosaic.Lib.Pipeline.FrameBody
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: the memory after the five host operations that
    build the three zero-padded attention columns. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is its host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub hostOps0_fresh (fun c => main_chain c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Every input window's current staging buffer holds its block at every point, fetched there or not: a window
    that is not fetched at a point has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The body's one branch condition -/

/-- The condition of the body's `scf.if`: the grid coordinate is zero. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 50 = 0 :=
  (by decide +kernel : ∀ t : Fin grid0.N, cond0 (grid0.coords t) ↔ t.val % 50 = 0)

/-- No window is ever idle. -/
theorem liveAt : ∀ (w : Fin cfg0.W) (t : Fin cfg0.N), cfg0.idle w (grid0.coords t) = false := by decide +kernel

/-! ## The staging and scratch memrefs -/

abbrev VO18 : View sig .tc .vmem S200x128 .f32 := (Memref.whole cc0_stg18_0 : Memref sig .tc .vmem S200x128 .f32).view
abbrev ms0 (t : Fin cfg0.N) : Memref sig .tc .vmem S40x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S40x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S40x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S40x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S40x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S40x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S40x10000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S40x10000 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S40x10000 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S40x10000 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S10000x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S128x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S128x3 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S128x3 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S128x3 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S3x3 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S200x128 .f32 := win0_18.stage (cfg0.slots t 18)
abbrev hs18 (t : Fin cfg0.N) : (ms18 t).IsWhole := hstage0_18 ((cfg0.slots t 18).cast nbuf0_18)
abbrev scM0 : Memref sig .tc .vmem S10000x128 .f32 := Memref.whole cc0_scratch0
abbrev scM1 : Memref sig .tc .vmem S10000x128 .f32 := Memref.whole cc0_scratch1
abbrev VS0 : View sig .tc .vmem S10000x128 .f32 := scM0.view
abbrev VS1 : View sig .tc .vmem S10000x128 .f32 := scM1.view

/-- The scoped buffers that are no staging buffer are the two scratch buffers, each owned whole at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-! ## The body, run once per case -/

set_option maxHeartbeats 8000000 in
/-- THE FIRST POINT. On whole memrefs — the inputs' at their blocks, the output's and both scratch buffers at
    anything — the body runs to the end, leaving the inputs as they were and each of the three written buffers
    with the pieces its stores wrote. -/
noncomputable def kernelRunA (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S10000x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x3 .f32) (harg15 : arg15.IsWhole) (arg16 : Memref sig .tc .vmem S128x3 .f32) (harg16 : arg16.IsWhole) (arg17 : Memref sig .tc .vmem S128x3 .f32) (harg17 : arg17.IsWhole) (arg18 : Memref sig .tc .vmem S3x3 .f32) (harg18 : arg18.IsWhole) (arg19 : Memref sig .tc .vmem S200x128 .f32) (harg19 : arg19.IsWhole) (arg20 : Memref sig .tc .vmem S10000x128 .f32) (harg20 : arg20.IsWhole) (arg21 : Memref sig .tc .vmem S10000x128 .f32) (harg21 : arg21.IsWhole) (hc0 : cond0 i)
    (x0 : Vec F S40x10000 .f32) (x1 : Vec F S40x10000 .f32) (x2 : Vec F S40x10000 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S10000x128 .f32) (x11 : Vec F S128x128 .f32) (x12 : Vec F S128x128 .f32) (x13 : Vec F S128x128 .f32) (x14 : Vec F S128x3 .f32) (x15 : Vec F S128x3 .f32) (x16 : Vec F S128x3 .f32) (x17 : Vec F S3x3 .f32) :
    Σ' (L18 : List (View.Piece (Elt F) S200x128 .f32)) (LS0 : List (View.Piece (Elt F) S10000x128 .f32)), { LS1 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [HS0]; · iexists _; iexact HS0
    iexists _; iexact HS1

set_option maxHeartbeats 8000000 in
/-- EVERY LATER POINT. The scratch buffers are held at given contents and only read; the output's buffer ends
    with the pieces its store wrote. -/
noncomputable def kernelRunB (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S10000x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x3 .f32) (harg15 : arg15.IsWhole) (arg16 : Memref sig .tc .vmem S128x3 .f32) (harg16 : arg16.IsWhole) (arg17 : Memref sig .tc .vmem S128x3 .f32) (harg17 : arg17.IsWhole) (arg18 : Memref sig .tc .vmem S3x3 .f32) (harg18 : arg18.IsWhole) (arg19 : Memref sig .tc .vmem S200x128 .f32) (harg19 : arg19.IsWhole) (arg20 : Memref sig .tc .vmem S10000x128 .f32) (harg20 : arg20.IsWhole) (arg21 : Memref sig .tc .vmem S10000x128 .f32) (harg21 : arg21.IsWhole) (hc0 : ¬cond0 i)
    (x0 : Vec F S40x10000 .f32) (x1 : Vec F S40x10000 .f32) (x2 : Vec F S40x10000 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S10000x128 .f32) (x11 : Vec F S128x128 .f32) (x12 : Vec F S128x128 .f32) (x13 : Vec F S128x128 .f32) (x14 : Vec F S128x3 .f32) (x15 : Vec F S128x3 .f32) (x16 : Vec F S128x3 .f32) (x17 : Vec F S3x3 .f32) (xs0 : Vec F S10000x128 .f32) (xs1 : Vec F S10000x128 .f32) :
    { L18 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ owns (c : Thread nD τ) arg20 fullShare xs0 ∗ owns (c : Thread nD τ) arg21 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ owns (c : Thread nD τ) arg20 fullShare xs0 ∗ owns (c : Thread nD τ) arg21 fullShare xs1) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg20.eq_unread hfs0; obtain rfl := harg21.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [HS0]
    · iexists _; isplitr; · ipureintro; exact harg20.read_unread _
      iexact HS0
    iexists _; isplitr; · ipureintro; exact harg21.read_unread _
    iexact HS1

end Cert.Kernel.Fr

end
-- ==== Proof.LibSharedFrame.lean ====
/-
  The frame run of a one-region kernel whose input windows may SHARE an array.

  A pallas_call may be handed one array through several input windows (the same operand under several index
  maps). The windows' arrays are then not pairwise distinct, and the array's full share has to be dealt among the
  windows on it. This module states the run once for such a kernel that names no semaphore, scratch buffer or
  generator register of its own: the region's invariant is what the core's scoped buffers other than the staging
  buffers yield (`hin`, `hout`), the unscoped buffers that are no window's array pass by the region unread, and
  the arrays' shares are dealt by the certificate (`hsplit`). The conclusion is the library's frame post: every
  window's array at what the proof data compute after the last write-back, every other unscoped buffer as the
  region found it.
-/
import Idealize.ShloMosaic.Lib.Pipeline.Frame

noncomputable section

namespace Idealize.ShloMosaic.Pipeline

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- The frame run for windows that may share arrays. `hsplit` deals the buffers behind the windows' arrays, each
    whole at the full share at the region-entry contents `V`, into the proof data's arrays at their shares. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show iprop(emp ∗ scopedRest (cfgs p).spec c) ⊢ (scopedRest (cfgs p).spec c : sProp 𝕄) from by
      iintro ⟨-, H⟩; iexact H).trans (hin c))
    (hout := fun c => (hout c).trans (by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline

end
-- ==== Proof.KFrame.lean ====
/-
  The frame of the kernel: it runs to the end without a fault and leaves its argument arrays as they were.

  The proof data say, for every grid point, what each window's staging buffer holds after the body: an input
  window still its block, the output window the 200 rows the body stored. The invariant carried from point
  to point is about the two scratch buffers: before the first point they hold anything, after any point
  they hold what the first point's two stores wrote (the later points only read them). The two adjacency
  matrices are each handed to the kernel through five windows, so each matrix's full share is dealt among
  its five windows, every one of which only reads.
-/
import proofs.«129832_g4337916969350_cont_sun_m_394_15_alg».proof.Proof.KRuns
import proofs.«129832_g4337916969350_cont_sun_m_394_15_alg».proof.Proof.LibSharedFrame
import Idealize.ShloMosaic.Lib.Ring
import Idealize.ShloMosaic.Lib.StableHlo.Run

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first point's run, and what it leaves in the scratch buffers -/

/-- The first grid point. -/
abbrev t0 : Fin cfg0.N := ⟨0, by decide⟩

theorem t0_of (t : Fin cfg0.N) (h : t.val % 50 = 0) : t = t0 := by
  have hN : t.val < 50 := lt_of_lt_of_eq t.isLt N_0
  apply Fin.ext; show t.val = 0; omega

/-- The body's run at the first point, on that point's staging memrefs and input blocks. -/
def runA (c : Dev nD) := kernelRunA (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) (ms13 t0) (hs13 t0) (ms14 t0) (hs14 t0) (ms15 t0) (hs15 t0) (ms16 t0) (hs16 t0) (ms17 t0) (hs17 t0) (ms18 t0) (hs18 t0) scM0 (Memref.isWhole_whole _) scM1 (Memref.isWhole_whole _) ((hcond0 t0).mpr rfl) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0)

theorem scoverA0 (c : Dev nD) (y : S10000x128.Idx) : ∃ pc ∈ (runA m c).2.1, y ∈ pc.1.set :=
  View.cover_of_tiledL (runA m c).2.1 S10000x128.size (by sl_kernel_rfl) y
theorem scoverA1 (c : Dev nD) (y : S10000x128.Idx) : ∃ pc ∈ (runA m c).2.2.1, y ∈ pc.1.set :=
  View.cover_of_tiledL (runA m c).2.2.1 S10000x128.size (by sl_kernel_rfl) y
theorem coverA18 (c : Dev nD) (y : S200x128.Idx) : ∃ pc ∈ (runA m c).1, y ∈ pc.1.set :=
  View.cover_of_tiledL (runA m c).1 S200x128.size (by sl_kernel_rfl) y

/-- What the first point leaves in the first scratch buffer, -/
def S0 (c : Dev nD) : Vec F S10000x128 .f32 := VS0.read (Elt F) (VS0.writes (Elt F) VS0.junk (runA m c).2.1)
/-- and in the second. -/
def S1 (c : Dev nD) : Vec F S10000x128 .f32 := VS1.read (Elt F) (VS1.writes (Elt F) VS1.junk (runA m c).2.2.1)

/-- The body's run at a later point: the scratch buffers at what the first point left. -/
def runB (c : Dev nD) (t : Fin cfg0.N) (h : ¬t.val % 50 = 0) := kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM0 (Memref.isWhole_whole _) scM1 (Memref.isWhole_whole _) (fun hc => h ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (S0 m c) (S1 m c)

theorem coverB18 (c : Dev nD) (t : Fin cfg0.N) (h : ¬t.val % 50 = 0) (y : S200x128.Idx) : ∃ pc ∈ (runB m c t h).1, y ∈ pc.1.set :=
  View.cover_of_tiledL (runB m c t h).1 S200x128.size (by sl_kernel_rfl) y

/-- What the output window's staging buffer holds after the body at point `t`. -/
def out18 (c : Dev nD) (t : Fin cfg0.N) : Vec F S200x128 .f32 :=
  if h : t.val % 50 = 0 then VO18.read (Elt F) (VO18.writes (Elt F) VO18.junk (runA m c).1)
  else VO18.read (Elt F) (VO18.writes (Elt F) VO18.junk (runB m c t h).1)

/-! ## The invariant and the proof data -/

/-- Before position `n`: the two scratch buffers at anything before the first point, afterwards at what the
    first point left. -/
def PhiS (c : Dev nD) : ℕ → sProp 𝕄
  | 0 => iprop((∃ d, owns (c : Thread nD τ) scM0 fullShare d) ∗ (∃ d, owns (c : Thread nD τ) scM1 fullShare d))
  | _ + 1 => iprop(owns (c : Thread nD τ) scM0 fullShare (S0 m c) ∗ owns (c : Thread nD τ) scM1 fullShare (S1 m c))

/-- Each window's share of its array: a matrix read through five windows is dealt in five. -/
def shareOf : Fin 19 → PosShare TreeShare := ![fullShare.left.left, fullShare.left.right, fullShare.right.left, fullShare.right.right.left, fullShare.right.right.right, fullShare.left.left, fullShare.left.right, fullShare.right.left, fullShare.right.right.left, fullShare.right.right.right, fullShare, fullShare, fullShare, fullShare, fullShare, fullShare, fullShare, fullShare, fullShare]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out18 m c t
    | ⟨_ + 19, h⟩ => absurd h (Nat.not_lt.2 (Nat.le_add_left _ _))
  Φ t := PhiS m c t.val
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = out18 m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d
theorem before17 (c : Dev nD) (t : Fin cfg0.N) (d) : (dats m 0 c).before 17 t d = iblk m c 17 t :=
  before17_of m (dats m 0 c) (A_eq m c 17) (after17 m c) t d

theorem leaves0 (c : Dev nD) (t : Fin cfg0.N) : (dats m 0 c).leavesExact 0 t = owns (c : Thread nD τ) (ms0 t) fullShare ((dats m 0 c).after 0 t) := by
  unfold Dat.leavesExact; rw [liveAt 0 t]
theorem leaves1 (c : Dev nD) (t : Fin cfg0.N) : (dats m 0 c).leavesExact 1 t = owns (c : Thread nD τ) (ms1 t) fullShare ((dats m 0 c).after 1 t) := by
  unfold Dat.leavesExact; rw [liveAt 1 t]
theorem leaves2 (c : Dev nD) (t : Fin cfg0.N) : (dats m 0 c).leavesExact 2 t = owns (c : Thread nD τ) (ms2 t) fullShare ((dats m 0 c).after 2 t) := by
  unfold Dat.leavesExact; rw [liveAt 2 t]
theorem leaves3 (c : Dev nD) (t : Fin cfg0.N) : (dats m 0 c).leavesExact 3 t = owns (c : Thread nD τ) (ms3 t) fullShare ((dats m 0 c).after 3 t) := by
  unfold Dat.leavesExact; rw [liveAt 3 t]
theorem leaves4 (c : Dev nD) (t : Fin cfg0.N) : (dats m 0 c).leavesExact 4 t = owns (c : Thread nD τ) (ms4 t) fullShare ((dats m 0 c).after 4 t) := by
  unfold Dat.leavesExact; rw [liveAt 4 t]
theorem leaves5 (c : Dev nD) (t : Fin cfg0.N) : (dats m 0 c).leavesExact 5 t = owns (c : Thread nD τ) (ms5 t) fullShare ((dats m 0 c).after 5 t) := by
  unfold Dat.leavesExact; rw [liveAt 5 t]
theorem leaves6 (c : Dev nD) (t : Fin cfg0.N) : (dats m 0 c).leavesExact 6 t = owns (c : Thread nD τ) (ms6 t) fullShare ((dats m 0 c).after 6 t) := by
  unfold Dat.leavesExact; rw [liveAt 6 t]
theorem leaves7 (c : Dev nD) (t : Fin cfg0.N) : (dats m 0 c).leavesExact 7 t = owns (c : Thread nD τ) (ms7 t) fullShare ((dats m 0 c).after 7 t) := by
  unfold Dat.leavesExact; rw [liveAt 7 t]
theorem leaves8 (c : Dev nD) (t : Fin cfg0.N) : (dats m 0 c).leavesExact 8 t = owns (c : Thread nD τ) (ms8 t) fullShare ((dats m 0 c).after 8 t) := by
  unfold Dat.leavesExact; rw [liveAt 8 t]
theorem leaves9 (c : Dev nD) (t : Fin cfg0.N) : (dats m 0 c).leavesExact 9 t = owns (c : Thread nD τ) (ms9 t) fullShare ((dats m 0 c).after 9 t) := by
  unfold Dat.leavesExact; rw [liveAt 9 t]
theorem leaves10 (c : Dev nD) (t : Fin cfg0.N) : (dats m 0 c).leavesExact 10 t = owns (c : Thread nD τ) (ms10 t) fullShare ((dats m 0 c).after 10 t) := by
  unfold Dat.leavesExact; rw [liveAt 10 t]
theorem leaves11 (c : Dev nD) (t : Fin cfg0.N) : (dats m 0 c).leavesExact 11 t = owns (c : Thread nD τ) (ms11 t) fullShare ((dats m 0 c).after 11 t) := by
  unfold Dat.leavesExact; rw [liveAt 11 t]
theorem leaves12 (c : Dev nD) (t : Fin cfg0.N) : (dats m 0 c).leavesExact 12 t = owns (c : Thread nD τ) (ms12 t) fullShare ((dats m 0 c).after 12 t) := by
  unfold Dat.leavesExact; rw [liveAt 12 t]
theorem leaves13 (c : Dev nD) (t : Fin cfg0.N) : (dats m 0 c).leavesExact 13 t = owns (c : Thread nD τ) (ms13 t) fullShare ((dats m 0 c).after 13 t) := by
  unfold Dat.leavesExact; rw [liveAt 13 t]
theorem leaves14 (c : Dev nD) (t : Fin cfg0.N) : (dats m 0 c).leavesExact 14 t = owns (c : Thread nD τ) (ms14 t) fullShare ((dats m 0 c).after 14 t) := by
  unfold Dat.leavesExact; rw [liveAt 14 t]
theorem leaves15 (c : Dev nD) (t : Fin cfg0.N) : (dats m 0 c).leavesExact 15 t = owns (c : Thread nD τ) (ms15 t) fullShare ((dats m 0 c).after 15 t) := by
  unfold Dat.leavesExact; rw [liveAt 15 t]
theorem leaves16 (c : Dev nD) (t : Fin cfg0.N) : (dats m 0 c).leavesExact 16 t = owns (c : Thread nD τ) (ms16 t) fullShare ((dats m 0 c).after 16 t) := by
  unfold Dat.leavesExact; rw [liveAt 16 t]
theorem leaves17 (c : Dev nD) (t : Fin cfg0.N) : (dats m 0 c).leavesExact 17 t = owns (c : Thread nD τ) (ms17 t) fullShare ((dats m 0 c).after 17 t) := by
  unfold Dat.leavesExact; rw [liveAt 17 t]
theorem leaves18 (c : Dev nD) (t : Fin cfg0.N) : (dats m 0 c).leavesExact 18 t = owns (c : Thread nD τ) (ms18 t) fullShare ((dats m 0 c).after 18 t) := by
  unfold Dat.leavesExact; rw [liveAt 18 t]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17]
  simp only [leaves0, leaves1, leaves2, leaves3, leaves4, leaves5, leaves6, leaves7, leaves8, leaves9, leaves10, leaves11, leaves12, leaves13, leaves14, leaves15, leaves16, leaves17, leaves18, after0, after1, after2, after3, after4, after5, after6, after7, after8, after9, after10, after11, after12, after13, after14, after15, after16, after17, after18]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  by_cases h0 : t.val % 50 = 0
  · obtain rfl := t0_of t h0
    unfold out18; rw [dif_pos h0]
    show iprop(PhiS m c 0 ∗ _) ⊢ _
    unfold PhiS
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((runA m c).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [HS0]; · iexact HS0
    isplitl [HS1]; · iexact HS1
    iintro ⟨H0, H1, H2, H3, H4, H5, H6, H7, H8, H9, H10, H11, H12, H13, H14, H15, H16, H17, ⟨%e18, H18⟩, ⟨%es0, HS0⟩, ⟨%es1, HS1⟩⟩
    isplitl [HS0 HS1]
    · isplitl [HS0]
      · unfold owns; iexists _; isplitr
        swap; · iexact HS0
        ipureintro; exact View.read_writes_of_cover _ _ _ _ _ (scoverA0 m c)
      · unfold owns; iexists _; isplitr
        swap; · iexact HS1
        ipureintro; exact View.read_writes_of_cover _ _ _ _ _ (scoverA1 m c)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    unfold owns; iexists _; isplitr
    swap; · iexact H18
    ipureintro; exact View.read_writes_of_cover _ _ _ _ _ (coverA18 m c)
  · unfold out18; rw [dif_neg h0]
    obtain ⟨n, hn⟩ : ∃ n, t.val = n + 1 := Nat.exists_eq_succ_of_ne_zero (fun hz => h0 (by rw [hz]))
    rw [hn]
    unfold PhiS
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((runB m c t h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [HS0]; · iexact HS0
    isplitl [HS1]; · iexact HS1
    iintro ⟨H0, H1, H2, H3, H4, H5, H6, H7, H8, H9, H10, H11, H12, H13, H14, H15, H16, H17, ⟨%e18, H18⟩, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    unfold owns; iexists _; isplitr
    swap; · iexact H18
    ipureintro; exact View.read_writes_of_cover _ _ _ _ _ (coverB18 m c t h0)

theorem body_obligation (c : Dev nD) : BodyObligation (dats (F := F) m 0 c) (defs₀ (F := F)) Variants.none () Set.univ := fun t => by
  rw [bigSep_W0, bigSep_W0]
  exact sound_body m c t

/-! ## Into and out of the region -/

theorem hin (c : Dev nD) : (Pipeline.scopedRest (Ix := Unit) (Name := ℕ) (U := UR sig nD τ) (Lvl := ℕ) (Val := Elt F) spec0 c : sProp 𝕄) ⊢ (dats m 0 c).Φ 0 := by
  rw [scoped_eq]; exact Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [scoped_eq]
  show PhiS m c (Fin.last cfg0.N).val ⊢ _
  rw [show (Fin.last cfg0.N).val = 49 + 1 from by rw [Fin.val_last]; exact N_0]
  unfold PhiS
  iintro ⟨HS0, HS1⟩
  isplitl [HS0]
  · iexists _; iexact HS0
  iexists _; iexact HS1

/-! ## The arrays' shares -/

/-- A buffer held at a share is held at its two halves. -/
theorem halve (c : Dev nD) (b : Ref sig .tc) (q : PosShare TreeShare) (v : Buf (Elt F) ((c : Thread nD τ).loc b)) :
    (((c : Thread nD τ).loc b) ↦{q} v : sProp 𝕄) ⊢ iprop((((c : Thread nD τ).loc b) ↦{q.left} v) ∗ (((c : Thread nD τ).loc b) ↦{q.right} v)) :=
  (pointsTo_share (PosShare.mem_left_op_right q)).1

/-- and so at five shares. -/
theorem deal5 (c : Dev nD) (b : Ref sig .tc) (v : Buf (Elt F) ((c : Thread nD τ).loc b)) :
    (((c : Thread nD τ).loc b) ↦{fullShare} v : sProp 𝕄) ⊢ iprop((((c : Thread nD τ).loc b) ↦{fullShare.left.left} v) ∗ (((c : Thread nD τ).loc b) ↦{fullShare.left.right} v) ∗ (((c : Thread nD τ).loc b) ↦{fullShare.right.left} v) ∗ (((c : Thread nD τ).loc b) ↦{fullShare.right.right.left} v) ∗ (((c : Thread nD τ).loc b) ↦{fullShare.right.right.right} v)) := by
  iintro H
  ihave HH := (halve c b fullShare v) $$ H
  icases HH with ⟨HL, HR⟩
  ihave HLL := (halve c b fullShare.left v) $$ HL
  icases HLL with ⟨H0, H1⟩
  ihave HRR := (halve c b fullShare.right v) $$ HR
  icases HRR with ⟨H2, HR'⟩
  ihave HRRR := (halve c b fullShare.right.right v) $$ HR'
  icases HRRR with ⟨H3, H4⟩
  isplitl [H0]; · iexact H0
  isplitl [H1]; · iexact H1
  isplitl [H2]; · iexact H2
  isplitl [H3]; · iexact H3
  iexact H4

theorem arrays_eq (c : Dev nD) :
    (dats m 0 c).arrays ((dats m 0 c).arrAt · 0)
      = bigSep Finset.univ fun w : Fin 19 => (((c : Thread nD τ).loc (Pipeline.arrRef spec0 w)) ↦{shareOf w} V m c (Pipeline.arrRef spec0 w) : sProp 𝕄) := by
  unfold Dat.arrays
  exact bigSep_congr fun w _ => by
    rw [(arr_whole0 w).set_eq_univ]
    fin_cases w <;> rfl

/-- The distinct buffers behind the windows' arrays, one by one. -/
theorem arrBufs_eq (c : Dev nD) : (Pipeline.arrBufs spec0 c (V m c) : sProp 𝕄) = iprop((((c : Thread nD τ).loc main_arg1) ↦{fullShare} V m c main_arg1) ∗ (((c : Thread nD τ).loc main_arg2) ↦{fullShare} V m c main_arg2) ∗ (((c : Thread nD τ).loc main_arg0) ↦{fullShare} V m c main_arg0) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_v1) ↦{fullShare} V m c main_v1) ∗ (((c : Thread nD τ).loc main_v2) ↦{fullShare} V m c main_v2) ∗ (((c : Thread nD τ).loc main_v3) ↦{fullShare} V m c main_v3) ∗ (((c : Thread nD τ).loc main_arg9) ↦{fullShare} V m c main_arg9) ∗ (((c : Thread nD τ).loc main_v4) ↦{fullShare} V m c main_v4)) := by
  unfold Pipeline.arrBufs
  exact bigSep_eq_bigSepL_of_eq [main_arg1, main_arg2, main_arg0, main_arg3, main_arg4, main_arg5, main_v1, main_v2, main_v3, main_arg9, main_v4] (by decide) (by decide) _

theorem hsplit (c : Dev nD) : (Pipeline.arrBufs spec0 c (V m c) : sProp 𝕄) ⊢ (dats m 0 c).arrays ((dats m 0 c).arrAt · 0) := by
  rw [arrays_eq, bigSep_W0, arrBufs_eq]
  iintro ⟨H1, H2, H0, H3, H4, H5, Hv1, Hv2, Hv3, H9, Hv4⟩
  ihave HA := (deal5 c main_arg1 (V m c main_arg1)) $$ H1
  icases HA with ⟨A0, A1, A2, A3, A4⟩
  ihave HB := (deal5 c main_arg2 (V m c main_arg2)) $$ H2
  icases HB with ⟨B0, B1, B2, B3, B4⟩
  isplitl [A0]; · iexact A0
  isplitl [A1]; · iexact A1
  isplitl [A2]; · iexact A2
  isplitl [A3]; · iexact A3
  isplitl [A4]; · iexact A4
  isplitl [B0]; · iexact B0
  isplitl [B1]; · iexact B1
  isplitl [B2]; · iexact B2
  isplitl [B3]; · iexact B3
  isplitl [B4]; · iexact B4
  isplitl [H0]; · iexact H0
  isplitl [H3]; · iexact H3
  isplitl [H4]; · iexact H4
  isplitl [H5]; · iexact H5
  isplitl [Hv1]; · iexact Hv1
  isplitl [Hv2]; · iexact Hv2
  isplitl [Hv3]; · iexact Hv3
  isplitl [H9]; · iexact H9
  iexact Hv4

/-! ## The run and the frame -/

set_option backward.isDefEq.respectTransparency.types false in
/-- Every weakly fair execution of @main ends, with every window's array at what the proof data compute and every
    other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-! ## The frame -/

/-! The host operations before the region write none of the arguments. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results
theorem V_main_arg3 (c : Dev nD) : V m c main_arg3 = m ((c : Thread nD τ).loc main_arg3) := by
  dsimp only [V, V0]; simp only [hostOps0, List.flatten_cons, List.flatten_nil, List.append_nil]; after_results
theorem V_main_arg4 (c : Dev nD) : V m c main_arg4 = m ((c : Thread nD τ).loc main_arg4) := by
  dsimp only [V, V0]; simp only [hostOps0, List.flatten_cons, List.flatten_nil, List.append_nil]; after_results
theorem V_main_arg5 (c : Dev nD) : V m c main_arg5 = m ((c : Thread nD τ).loc main_arg5) := by
  dsimp only [V, V0]; simp only [hostOps0, List.flatten_cons, List.flatten_nil, List.append_nil]; after_results
theorem V_main_arg6 (c : Dev nD) : V m c main_arg6 = m ((c : Thread nD τ).loc main_arg6) := by
  dsimp only [V, V0]; simp only [hostOps0, List.flatten_cons, List.flatten_nil, List.append_nil]; after_results
theorem V_main_arg7 (c : Dev nD) : V m c main_arg7 = m ((c : Thread nD τ).loc main_arg7) := by
  dsimp only [V, V0]; simp only [hostOps0, List.flatten_cons, List.flatten_nil, List.append_nil]; after_results
theorem V_main_arg8 (c : Dev nD) : V m c main_arg8 = m ((c : Thread nD τ).loc main_arg8) := by
  dsimp only [V, V0]; simp only [hostOps0, List.flatten_cons, List.flatten_nil, List.append_nil]; after_results
theorem V_main_arg9 (c : Dev nD) : V m c main_arg9 = m ((c : Thread nD τ).loc main_arg9) := by
  dsimp only [V, V0]; simp only [hostOps0, List.flatten_cons, List.flatten_nil, List.append_nil]; after_results

/-- Every weakly fair execution ends, nothing faults, and the ten argument arrays hold what they held: seven of them
    are arrays of input windows, which the library never writes, and three bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).1 10).trans (((dats m 0 c).arrAt_in 10 rfl _).trans ((A_eq m c 10).trans (V_main_arg0 m c))),
    ((h c).1 0).trans (((dats m 0 c).arrAt_in 0 rfl _).trans ((A_eq m c 0).trans (V_main_arg1 m c))),
    ((h c).1 5).trans (((dats m 0 c).arrAt_in 5 rfl _).trans ((A_eq m c 5).trans (V_main_arg2 m c))),
    ((h c).1 11).trans (((dats m 0 c).arrAt_in 11 rfl _).trans ((A_eq m c 11).trans (V_main_arg3 m c))),
    ((h c).1 12).trans (((dats m 0 c).arrAt_in 12 rfl _).trans ((A_eq m c 12).trans (V_main_arg4 m c))),
    ((h c).1 13).trans (((dats m 0 c).arrAt_in 13 rfl _).trans ((A_eq m c 13).trans (V_main_arg5 m c))),
    ((h c).2 main_arg6 (Pipeline.mem_restRefs_of main_arg6 rfl (by decide))).trans (V_main_arg6 m c),
    ((h c).2 main_arg7 (Pipeline.mem_restRefs_of main_arg7 rfl (by decide))).trans (V_main_arg7 m c),
    ((h c).2 main_arg8 (Pipeline.mem_restRefs_of main_arg8 rfl (by decide))).trans (V_main_arg8 m c),
    ((h c).1 17).trans (((dats m 0 c).arrAt_in 17 rfl _).trans ((A_eq m c 17).trans (V_main_arg9 m c)))⟩) (run_main m ρ)

end Cert.Kernel.Fr

end
-- ==== Proof.KIRuns.lean ====
/-
  What the two frame proofs of this kernel share, and the kernel body run once per control case.

  The kernel's grid has 50 points. At point 0 the body first fills two scratch buffers with the
  projections x·W_low and x·W_high and then does what it does at every point: it reads the scratch
  buffers back, multiplies five row stripes of each adjacency matrix with them, and stores one
  block of 200 output rows. So there are two control cases: the first point (both scratch buffers
  stored whole, then read), and every later point (both scratch buffers only read, at what the
  first point left in them). Each run is stated on arbitrary whole staging memrefs holding
  arbitrary input blocks; the pieces each written buffer ends with are found by the run itself.
-/
import proofs.«129832_g4337916969350_cont_sun_m_394_15_alg».proof.Proof.Gen.KernelIdeal.Launch
import proofs.«129832_g4337916969350_cont_sun_m_394_15_alg».proof.Proof.Gen.KernelIdeal.Skeleton
import proofs.«129832_g4337916969350_cont_sun_m_394_15_alg».proof.Proof.Gen.KernelIdeal.Points
import Idealize.ShloMosaic.Lib.Pipeline.FrameBody
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffer contents when the region is entered: the memory after the five host operations that
    build the three zero-padded attention columns. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is its host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub hostOps0_fresh (fun c => main_chain c)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Every input window's current staging buffer holds its block at every point, fetched there or not: a window
    that is not fetched at a point has not moved. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
theorem before17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)

/-! ## The body's one branch condition -/

/-- The condition of the body's `scf.if`: the grid coordinate is zero. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 50 = 0 :=
  (by decide +kernel : ∀ t : Fin grid0.N, cond0 (grid0.coords t) ↔ t.val % 50 = 0)

/-- No window is ever idle. -/
theorem liveAt : ∀ (w : Fin cfg0.W) (t : Fin cfg0.N), cfg0.idle w (grid0.coords t) = false := by decide +kernel

/-! ## The staging and scratch memrefs -/

abbrev VO18 : View sig .tc .vmem S200x128 .f32 := (Memref.whole cc0_stg18_0 : Memref sig .tc .vmem S200x128 .f32).view
abbrev ms0 (t : Fin cfg0.N) : Memref sig .tc .vmem S40x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S40x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S40x10000 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S40x10000 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S40x10000 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S40x10000 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S40x10000 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S40x10000 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S40x10000 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S40x10000 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S10000x128 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S128x128 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S128x128 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S128x128 .f32 := win0_13.stage (cfg0.slots t 13)
abbrev hs13 (t : Fin cfg0.N) : (ms13 t).IsWhole := hstage0_13 ((cfg0.slots t 13).cast nbuf0_13)
abbrev ms14 (t : Fin cfg0.N) : Memref sig .tc .vmem S128x3 .f32 := win0_14.stage (cfg0.slots t 14)
abbrev hs14 (t : Fin cfg0.N) : (ms14 t).IsWhole := hstage0_14 ((cfg0.slots t 14).cast nbuf0_14)
abbrev ms15 (t : Fin cfg0.N) : Memref sig .tc .vmem S128x3 .f32 := win0_15.stage (cfg0.slots t 15)
abbrev hs15 (t : Fin cfg0.N) : (ms15 t).IsWhole := hstage0_15 ((cfg0.slots t 15).cast nbuf0_15)
abbrev ms16 (t : Fin cfg0.N) : Memref sig .tc .vmem S128x3 .f32 := win0_16.stage (cfg0.slots t 16)
abbrev hs16 (t : Fin cfg0.N) : (ms16 t).IsWhole := hstage0_16 ((cfg0.slots t 16).cast nbuf0_16)
abbrev ms17 (t : Fin cfg0.N) : Memref sig .tc .vmem S3x3 .f32 := win0_17.stage (cfg0.slots t 17)
abbrev hs17 (t : Fin cfg0.N) : (ms17 t).IsWhole := hstage0_17 ((cfg0.slots t 17).cast nbuf0_17)
abbrev ms18 (t : Fin cfg0.N) : Memref sig .tc .vmem S200x128 .f32 := win0_18.stage (cfg0.slots t 18)
abbrev hs18 (t : Fin cfg0.N) : (ms18 t).IsWhole := hstage0_18 ((cfg0.slots t 18).cast nbuf0_18)
abbrev scM0 : Memref sig .tc .vmem S10000x128 .f32 := Memref.whole cc0_scratch0
abbrev scM1 : Memref sig .tc .vmem S10000x128 .f32 := Memref.whole cc0_scratch1
abbrev VS0 : View sig .tc .vmem S10000x128 .f32 := scM0.view
abbrev VS1 : View sig .tc .vmem S10000x128 .f32 := scM1.view

/-- The scoped buffers that are no staging buffer are the two scratch buffers, each owned whole at some contents. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scM0 fullShare d) ∗ (∃ d, owns (c : Thread nD τ) scM1 fullShare d)) := by
  rw [scopedRest0_eq]; simp only [scM0, scM1, owns_whole]; try rfl

/-! ## The body, run once per case -/

set_option maxHeartbeats 8000000 in
/-- THE FIRST POINT. On whole memrefs — the inputs' at their blocks, the output's and both scratch buffers at
    anything — the body runs to the end, leaving the inputs as they were and each of the three written buffers
    with the pieces its stores wrote. -/
noncomputable def kernelRunA (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S10000x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x3 .f32) (harg15 : arg15.IsWhole) (arg16 : Memref sig .tc .vmem S128x3 .f32) (harg16 : arg16.IsWhole) (arg17 : Memref sig .tc .vmem S128x3 .f32) (harg17 : arg17.IsWhole) (arg18 : Memref sig .tc .vmem S3x3 .f32) (harg18 : arg18.IsWhole) (arg19 : Memref sig .tc .vmem S200x128 .f32) (harg19 : arg19.IsWhole) (arg20 : Memref sig .tc .vmem S10000x128 .f32) (harg20 : arg20.IsWhole) (arg21 : Memref sig .tc .vmem S10000x128 .f32) (harg21 : arg21.IsWhole) (hc0 : cond0 i)
    (x0 : Vec F S40x10000 .f32) (x1 : Vec F S40x10000 .f32) (x2 : Vec F S40x10000 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S10000x128 .f32) (x11 : Vec F S128x128 .f32) (x12 : Vec F S128x128 .f32) (x13 : Vec F S128x128 .f32) (x14 : Vec F S128x3 .f32) (x15 : Vec F S128x3 .f32) (x16 : Vec F S128x3 .f32) (x17 : Vec F S3x3 .f32) :
    Σ' (L18 : List (View.Piece (Elt F) S200x128 .f32)) (LS0 : List (View.Piece (Elt F) S10000x128 .f32)), { LS1 : List (View.Piece (Elt F) S10000x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1)) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [HS0]; · iexists _; iexact HS0
    iexists _; iexact HS1

set_option maxHeartbeats 8000000 in
/-- EVERY LATER POINT. The scratch buffers are held at given contents and only read; the output's buffer ends
    with the pieces its store wrote. -/
noncomputable def kernelRunB (c : Dev nD) (i : grid0.Coords) (arg1 : Memref sig .tc .vmem S40x10000 .f32) (harg1 : arg1.IsWhole) (arg2 : Memref sig .tc .vmem S40x10000 .f32) (harg2 : arg2.IsWhole) (arg3 : Memref sig .tc .vmem S40x10000 .f32) (harg3 : arg3.IsWhole) (arg4 : Memref sig .tc .vmem S40x10000 .f32) (harg4 : arg4.IsWhole) (arg5 : Memref sig .tc .vmem S40x10000 .f32) (harg5 : arg5.IsWhole) (arg6 : Memref sig .tc .vmem S40x10000 .f32) (harg6 : arg6.IsWhole) (arg7 : Memref sig .tc .vmem S40x10000 .f32) (harg7 : arg7.IsWhole) (arg8 : Memref sig .tc .vmem S40x10000 .f32) (harg8 : arg8.IsWhole) (arg9 : Memref sig .tc .vmem S40x10000 .f32) (harg9 : arg9.IsWhole) (arg10 : Memref sig .tc .vmem S40x10000 .f32) (harg10 : arg10.IsWhole) (arg11 : Memref sig .tc .vmem S10000x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x3 .f32) (harg15 : arg15.IsWhole) (arg16 : Memref sig .tc .vmem S128x3 .f32) (harg16 : arg16.IsWhole) (arg17 : Memref sig .tc .vmem S128x3 .f32) (harg17 : arg17.IsWhole) (arg18 : Memref sig .tc .vmem S3x3 .f32) (harg18 : arg18.IsWhole) (arg19 : Memref sig .tc .vmem S200x128 .f32) (harg19 : arg19.IsWhole) (arg20 : Memref sig .tc .vmem S10000x128 .f32) (harg20 : arg20.IsWhole) (arg21 : Memref sig .tc .vmem S10000x128 .f32) (harg21 : arg21.IsWhole) (hc0 : ¬cond0 i)
    (x0 : Vec F S40x10000 .f32) (x1 : Vec F S40x10000 .f32) (x2 : Vec F S40x10000 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (x10 : Vec F S10000x128 .f32) (x11 : Vec F S128x128 .f32) (x12 : Vec F S128x128 .f32) (x13 : Vec F S128x128 .f32) (x14 : Vec F S128x3 .f32) (x15 : Vec F S128x3 .f32) (x16 : Vec F S128x3 .f32) (x17 : Vec F S3x3 .f32) (xs0 : Vec F S10000x128 .f32) (xs1 : Vec F S10000x128 .f32) :
    { L18 : List (View.Piece (Elt F) S200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ d, owns (c : Thread nD τ) arg19 fullShare d) ∗ owns (c : Thread nD τ) arg20 fullShare xs0 ∗ owns (c : Thread nD τ) arg21 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ (∃ f, arg19.view.loc (c : Thread nD τ) ↦[arg19.view.set]{fullShare} arg19.view.writes (Elt F) f L18) ∗ owns (c : Thread nD τ) arg20 fullShare xs0 ∗ owns (c : Thread nD τ) arg21 fullShare xs1) -∗ K ⟨⟩))
          ⊢ wp frame (wpE (defs₀ (F := F)) Variants.none c none) E (cc0__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun E K => ?run⟩
  case run =>
    simp only [cc0__main_kernel_eq_skeleton]; unfold cc0__main_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg20.eq_unread hfs0; obtain rfl := harg21.eq_unread hfs1
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]; · iexists _; iexact H18
    isplitl [HS0]
    · iexists _; isplitr; · ipureintro; exact harg20.read_unread _
      iexact HS0
    iexists _; isplitr; · ipureintro; exact harg21.read_unread _
    iexact HS1

end Cert.KernelIdeal.Fr

end
-- ==== Proof.KIFrame.lean ====
/-
  The frame of the kernel: it runs to the end without a fault and leaves its argument arrays as they were.

  The proof data say, for every grid point, what each window's staging buffer holds after the body: an input
  window still its block, the output window the 200 rows the body stored. The invariant carried from point
  to point is about the two scratch buffers: before the first point they hold anything, after any point
  they hold what the first point's two stores wrote (the later points only read them). The two adjacency
  matrices are each handed to the kernel through five windows, so each matrix's full share is dealt among
  its five windows, every one of which only reads.
-/
import proofs.«129832_g4337916969350_cont_sun_m_394_15_alg».proof.Proof.KIRuns
import proofs.«129832_g4337916969350_cont_sun_m_394_15_alg».proof.Proof.LibSharedFrame
import Idealize.ShloMosaic.Lib.Ring
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The first point's run, and what it leaves in the scratch buffers -/

/-- The first grid point. -/
abbrev t0 : Fin cfg0.N := ⟨0, by decide⟩

theorem t0_of (t : Fin cfg0.N) (h : t.val % 50 = 0) : t = t0 := by
  have hN : t.val < 50 := lt_of_lt_of_eq t.isLt N_0
  apply Fin.ext; show t.val = 0; omega

/-- The body's run at the first point, on that point's staging memrefs and input blocks. -/
def runA (c : Dev nD) := kernelRunA (F := F) c (grid0.coords t0) (ms0 t0) (hs0 t0) (ms1 t0) (hs1 t0) (ms2 t0) (hs2 t0) (ms3 t0) (hs3 t0) (ms4 t0) (hs4 t0) (ms5 t0) (hs5 t0) (ms6 t0) (hs6 t0) (ms7 t0) (hs7 t0) (ms8 t0) (hs8 t0) (ms9 t0) (hs9 t0) (ms10 t0) (hs10 t0) (ms11 t0) (hs11 t0) (ms12 t0) (hs12 t0) (ms13 t0) (hs13 t0) (ms14 t0) (hs14 t0) (ms15 t0) (hs15 t0) (ms16 t0) (hs16 t0) (ms17 t0) (hs17 t0) (ms18 t0) (hs18 t0) scM0 (Memref.isWhole_whole _) scM1 (Memref.isWhole_whole _) ((hcond0 t0).mpr rfl) (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) (iblk m c 14 t0) (iblk m c 15 t0) (iblk m c 16 t0) (iblk m c 17 t0)

theorem scoverA0 (c : Dev nD) (y : S10000x128.Idx) : ∃ pc ∈ (runA m c).2.1, y ∈ pc.1.set :=
  View.cover_of_tiledL (runA m c).2.1 S10000x128.size (by sl_kernel_rfl) y
theorem scoverA1 (c : Dev nD) (y : S10000x128.Idx) : ∃ pc ∈ (runA m c).2.2.1, y ∈ pc.1.set :=
  View.cover_of_tiledL (runA m c).2.2.1 S10000x128.size (by sl_kernel_rfl) y
theorem coverA18 (c : Dev nD) (y : S200x128.Idx) : ∃ pc ∈ (runA m c).1, y ∈ pc.1.set :=
  View.cover_of_tiledL (runA m c).1 S200x128.size (by sl_kernel_rfl) y

/-- What the first point leaves in the first scratch buffer, -/
def S0 (c : Dev nD) : Vec F S10000x128 .f32 := VS0.read (Elt F) (VS0.writes (Elt F) VS0.junk (runA m c).2.1)
/-- and in the second. -/
def S1 (c : Dev nD) : Vec F S10000x128 .f32 := VS1.read (Elt F) (VS1.writes (Elt F) VS1.junk (runA m c).2.2.1)

/-- The body's run at a later point: the scratch buffers at what the first point left. -/
def runB (c : Dev nD) (t : Fin cfg0.N) (h : ¬t.val % 50 = 0) := kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (ms14 t) (hs14 t) (ms15 t) (hs15 t) (ms16 t) (hs16 t) (ms17 t) (hs17 t) (ms18 t) (hs18 t) scM0 (Memref.isWhole_whole _) scM1 (Memref.isWhole_whole _) (fun hc => h ((hcond0 t).mp hc)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (S0 m c) (S1 m c)

theorem coverB18 (c : Dev nD) (t : Fin cfg0.N) (h : ¬t.val % 50 = 0) (y : S200x128.Idx) : ∃ pc ∈ (runB m c t h).1, y ∈ pc.1.set :=
  View.cover_of_tiledL (runB m c t h).1 S200x128.size (by sl_kernel_rfl) y

/-- What the output window's staging buffer holds after the body at point `t`. -/
def out18 (c : Dev nD) (t : Fin cfg0.N) : Vec F S200x128 .f32 :=
  if h : t.val % 50 = 0 then VO18.read (Elt F) (VO18.writes (Elt F) VO18.junk (runA m c).1)
  else VO18.read (Elt F) (VO18.writes (Elt F) VO18.junk (runB m c t h).1)

/-! ## The invariant and the proof data -/

/-- Before position `n`: the two scratch buffers at anything before the first point, afterwards at what the
    first point left. -/
def PhiS (c : Dev nD) : ℕ → sProp 𝕄
  | 0 => iprop((∃ d, owns (c : Thread nD τ) scM0 fullShare d) ∗ (∃ d, owns (c : Thread nD τ) scM1 fullShare d))
  | _ + 1 => iprop(owns (c : Thread nD τ) scM0 fullShare (S0 m c) ∗ owns (c : Thread nD τ) scM1 fullShare (S1 m c))

/-- Each window's share of its array: a matrix read through five windows is dealt in five. -/
def shareOf : Fin 19 → PosShare TreeShare := ![fullShare.left.left, fullShare.left.right, fullShare.right.left, fullShare.right.right.left, fullShare.right.right.right, fullShare.left.left, fullShare.left.right, fullShare.right.left, fullShare.right.right.left, fullShare.right.right.right, fullShare, fullShare, fullShare, fullShare, fullShare, fullShare, fullShare, fullShare, fullShare]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => out18 m c t
    | ⟨_ + 19, h⟩ => absurd h (Nat.not_lt.2 (Nat.le_add_left _ _))
  Φ t := PhiS m c t.val
  q := shareOf
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = out18 m c t := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d
theorem before11 (c : Dev nD) (t : Fin cfg0.N) (d) : (dats m 0 c).before 11 t d = iblk m c 11 t :=
  before11_of m (dats m 0 c) (A_eq m c 11) (after11 m c) t d
theorem before12 (c : Dev nD) (t : Fin cfg0.N) (d) : (dats m 0 c).before 12 t d = iblk m c 12 t :=
  before12_of m (dats m 0 c) (A_eq m c 12) (after12 m c) t d
theorem before13 (c : Dev nD) (t : Fin cfg0.N) (d) : (dats m 0 c).before 13 t d = iblk m c 13 t :=
  before13_of m (dats m 0 c) (A_eq m c 13) (after13 m c) t d
theorem before14 (c : Dev nD) (t : Fin cfg0.N) (d) : (dats m 0 c).before 14 t d = iblk m c 14 t :=
  before14_of m (dats m 0 c) (A_eq m c 14) (after14 m c) t d
theorem before15 (c : Dev nD) (t : Fin cfg0.N) (d) : (dats m 0 c).before 15 t d = iblk m c 15 t :=
  before15_of m (dats m 0 c) (A_eq m c 15) (after15 m c) t d
theorem before16 (c : Dev nD) (t : Fin cfg0.N) (d) : (dats m 0 c).before 16 t d = iblk m c 16 t :=
  before16_of m (dats m 0 c) (A_eq m c 16) (after16 m c) t d
theorem before17 (c : Dev nD) (t : Fin cfg0.N) (d) : (dats m 0 c).before 17 t d = iblk m c 17 t :=
  before17_of m (dats m 0 c) (A_eq m c 17) (after17 m c) t d

theorem leaves0 (c : Dev nD) (t : Fin cfg0.N) : (dats m 0 c).leavesExact 0 t = owns (c : Thread nD τ) (ms0 t) fullShare ((dats m 0 c).after 0 t) := by
  unfold Dat.leavesExact; rw [liveAt 0 t]
theorem leaves1 (c : Dev nD) (t : Fin cfg0.N) : (dats m 0 c).leavesExact 1 t = owns (c : Thread nD τ) (ms1 t) fullShare ((dats m 0 c).after 1 t) := by
  unfold Dat.leavesExact; rw [liveAt 1 t]
theorem leaves2 (c : Dev nD) (t : Fin cfg0.N) : (dats m 0 c).leavesExact 2 t = owns (c : Thread nD τ) (ms2 t) fullShare ((dats m 0 c).after 2 t) := by
  unfold Dat.leavesExact; rw [liveAt 2 t]
theorem leaves3 (c : Dev nD) (t : Fin cfg0.N) : (dats m 0 c).leavesExact 3 t = owns (c : Thread nD τ) (ms3 t) fullShare ((dats m 0 c).after 3 t) := by
  unfold Dat.leavesExact; rw [liveAt 3 t]
theorem leaves4 (c : Dev nD) (t : Fin cfg0.N) : (dats m 0 c).leavesExact 4 t = owns (c : Thread nD τ) (ms4 t) fullShare ((dats m 0 c).after 4 t) := by
  unfold Dat.leavesExact; rw [liveAt 4 t]
theorem leaves5 (c : Dev nD) (t : Fin cfg0.N) : (dats m 0 c).leavesExact 5 t = owns (c : Thread nD τ) (ms5 t) fullShare ((dats m 0 c).after 5 t) := by
  unfold Dat.leavesExact; rw [liveAt 5 t]
theorem leaves6 (c : Dev nD) (t : Fin cfg0.N) : (dats m 0 c).leavesExact 6 t = owns (c : Thread nD τ) (ms6 t) fullShare ((dats m 0 c).after 6 t) := by
  unfold Dat.leavesExact; rw [liveAt 6 t]
theorem leaves7 (c : Dev nD) (t : Fin cfg0.N) : (dats m 0 c).leavesExact 7 t = owns (c : Thread nD τ) (ms7 t) fullShare ((dats m 0 c).after 7 t) := by
  unfold Dat.leavesExact; rw [liveAt 7 t]
theorem leaves8 (c : Dev nD) (t : Fin cfg0.N) : (dats m 0 c).leavesExact 8 t = owns (c : Thread nD τ) (ms8 t) fullShare ((dats m 0 c).after 8 t) := by
  unfold Dat.leavesExact; rw [liveAt 8 t]
theorem leaves9 (c : Dev nD) (t : Fin cfg0.N) : (dats m 0 c).leavesExact 9 t = owns (c : Thread nD τ) (ms9 t) fullShare ((dats m 0 c).after 9 t) := by
  unfold Dat.leavesExact; rw [liveAt 9 t]
theorem leaves10 (c : Dev nD) (t : Fin cfg0.N) : (dats m 0 c).leavesExact 10 t = owns (c : Thread nD τ) (ms10 t) fullShare ((dats m 0 c).after 10 t) := by
  unfold Dat.leavesExact; rw [liveAt 10 t]
theorem leaves11 (c : Dev nD) (t : Fin cfg0.N) : (dats m 0 c).leavesExact 11 t = owns (c : Thread nD τ) (ms11 t) fullShare ((dats m 0 c).after 11 t) := by
  unfold Dat.leavesExact; rw [liveAt 11 t]
theorem leaves12 (c : Dev nD) (t : Fin cfg0.N) : (dats m 0 c).leavesExact 12 t = owns (c : Thread nD τ) (ms12 t) fullShare ((dats m 0 c).after 12 t) := by
  unfold Dat.leavesExact; rw [liveAt 12 t]
theorem leaves13 (c : Dev nD) (t : Fin cfg0.N) : (dats m 0 c).leavesExact 13 t = owns (c : Thread nD τ) (ms13 t) fullShare ((dats m 0 c).after 13 t) := by
  unfold Dat.leavesExact; rw [liveAt 13 t]
theorem leaves14 (c : Dev nD) (t : Fin cfg0.N) : (dats m 0 c).leavesExact 14 t = owns (c : Thread nD τ) (ms14 t) fullShare ((dats m 0 c).after 14 t) := by
  unfold Dat.leavesExact; rw [liveAt 14 t]
theorem leaves15 (c : Dev nD) (t : Fin cfg0.N) : (dats m 0 c).leavesExact 15 t = owns (c : Thread nD τ) (ms15 t) fullShare ((dats m 0 c).after 15 t) := by
  unfold Dat.leavesExact; rw [liveAt 15 t]
theorem leaves16 (c : Dev nD) (t : Fin cfg0.N) : (dats m 0 c).leavesExact 16 t = owns (c : Thread nD τ) (ms16 t) fullShare ((dats m 0 c).after 16 t) := by
  unfold Dat.leavesExact; rw [liveAt 16 t]
theorem leaves17 (c : Dev nD) (t : Fin cfg0.N) : (dats m 0 c).leavesExact 17 t = owns (c : Thread nD τ) (ms17 t) fullShare ((dats m 0 c).after 17 t) := by
  unfold Dat.leavesExact; rw [liveAt 17 t]
theorem leaves18 (c : Dev nD) (t : Fin cfg0.N) : (dats m 0 c).leavesExact 18 t = owns (c : Thread nD τ) (ms18 t) fullShare ((dats m 0 c).after 18 t) := by
  unfold Dat.leavesExact; rw [liveAt 18 t]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17]
  simp only [leaves0, leaves1, leaves2, leaves3, leaves4, leaves5, leaves6, leaves7, leaves8, leaves9, leaves10, leaves11, leaves12, leaves13, leaves14, leaves15, leaves16, leaves17, leaves18, after0, after1, after2, after3, after4, after5, after6, after7, after8, after9, after10, after11, after12, after13, after14, after15, after16, after17, after18]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  by_cases h0 : t.val % 50 = 0
  · obtain rfl := t0_of t h0
    unfold out18; rw [dif_pos h0]
    show iprop(PhiS m c 0 ∗ _) ⊢ _
    unfold PhiS
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((runA m c).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [HS0]; · iexact HS0
    isplitl [HS1]; · iexact HS1
    iintro ⟨H0, H1, H2, H3, H4, H5, H6, H7, H8, H9, H10, H11, H12, H13, H14, H15, H16, H17, ⟨%e18, H18⟩, ⟨%es0, HS0⟩, ⟨%es1, HS1⟩⟩
    isplitl [HS0 HS1]
    · isplitl [HS0]
      · unfold owns; iexists _; isplitr
        swap; · iexact HS0
        ipureintro; exact View.read_writes_of_cover _ _ _ _ _ (scoverA0 m c)
      · unfold owns; iexists _; isplitr
        swap; · iexact HS1
        ipureintro; exact View.read_writes_of_cover _ _ _ _ _ (scoverA1 m c)
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    unfold owns; iexists _; isplitr
    swap; · iexact H18
    ipureintro; exact View.read_writes_of_cover _ _ _ _ _ (coverA18 m c)
  · unfold out18; rw [dif_neg h0]
    obtain ⟨n, hn⟩ : ∃ n, t.val = n + 1 := Nat.exists_eq_succ_of_ne_zero (fun hz => h0 (by rw [hz]))
    rw [hn]
    unfold PhiS
    iintro ⟨⟨HS0, HS1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((runB m c t h0).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexists _; iexact H18
    isplitl [HS0]; · iexact HS0
    isplitl [HS1]; · iexact HS1
    iintro ⟨H0, H1, H2, H3, H4, H5, H6, H7, H8, H9, H10, H11, H12, H13, H14, H15, H16, H17, ⟨%e18, H18⟩, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    unfold owns; iexists _; isplitr
    swap; · iexact H18
    ipureintro; exact View.read_writes_of_cover _ _ _ _ _ (coverB18 m c t h0)

theorem body_obligation (c : Dev nD) : BodyObligation (dats (F := F) m 0 c) (defs₀ (F := F)) Variants.none () Set.univ := fun t => by
  rw [bigSep_W0, bigSep_W0]
  exact sound_body m c t

/-! ## Into and out of the region -/

theorem hin (c : Dev nD) : (Pipeline.scopedRest (Ix := Unit) (Name := ℕ) (U := UR sig nD τ) (Lvl := ℕ) (Val := Elt F) spec0 c : sProp 𝕄) ⊢ (dats m 0 c).Φ 0 := by
  rw [scoped_eq]; exact Idealize.SL.BI.Entails.refl _

theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [scoped_eq]
  show PhiS m c (Fin.last cfg0.N).val ⊢ _
  rw [show (Fin.last cfg0.N).val = 49 + 1 from by rw [Fin.val_last]; exact N_0]
  unfold PhiS
  iintro ⟨HS0, HS1⟩
  isplitl [HS0]
  · iexists _; iexact HS0
  iexists _; iexact HS1

/-! ## The arrays' shares -/

/-- A buffer held at a share is held at its two halves. -/
theorem halve (c : Dev nD) (b : Ref sig .tc) (q : PosShare TreeShare) (v : Buf (Elt F) ((c : Thread nD τ).loc b)) :
    (((c : Thread nD τ).loc b) ↦{q} v : sProp 𝕄) ⊢ iprop((((c : Thread nD τ).loc b) ↦{q.left} v) ∗ (((c : Thread nD τ).loc b) ↦{q.right} v)) :=
  (pointsTo_share (PosShare.mem_left_op_right q)).1

/-- and so at five shares. -/
theorem deal5 (c : Dev nD) (b : Ref sig .tc) (v : Buf (Elt F) ((c : Thread nD τ).loc b)) :
    (((c : Thread nD τ).loc b) ↦{fullShare} v : sProp 𝕄) ⊢ iprop((((c : Thread nD τ).loc b) ↦{fullShare.left.left} v) ∗ (((c : Thread nD τ).loc b) ↦{fullShare.left.right} v) ∗ (((c : Thread nD τ).loc b) ↦{fullShare.right.left} v) ∗ (((c : Thread nD τ).loc b) ↦{fullShare.right.right.left} v) ∗ (((c : Thread nD τ).loc b) ↦{fullShare.right.right.right} v)) := by
  iintro H
  ihave HH := (halve c b fullShare v) $$ H
  icases HH with ⟨HL, HR⟩
  ihave HLL := (halve c b fullShare.left v) $$ HL
  icases HLL with ⟨H0, H1⟩
  ihave HRR := (halve c b fullShare.right v) $$ HR
  icases HRR with ⟨H2, HR'⟩
  ihave HRRR := (halve c b fullShare.right.right v) $$ HR'
  icases HRRR with ⟨H3, H4⟩
  isplitl [H0]; · iexact H0
  isplitl [H1]; · iexact H1
  isplitl [H2]; · iexact H2
  isplitl [H3]; · iexact H3
  iexact H4

theorem arrays_eq (c : Dev nD) :
    (dats m 0 c).arrays ((dats m 0 c).arrAt · 0)
      = bigSep Finset.univ fun w : Fin 19 => (((c : Thread nD τ).loc (Pipeline.arrRef spec0 w)) ↦{shareOf w} V m c (Pipeline.arrRef spec0 w) : sProp 𝕄) := by
  unfold Dat.arrays
  exact bigSep_congr fun w _ => by
    rw [(arr_whole0 w).set_eq_univ]
    fin_cases w <;> rfl

/-- The distinct buffers behind the windows' arrays, one by one. -/
theorem arrBufs_eq (c : Dev nD) : (Pipeline.arrBufs spec0 c (V m c) : sProp 𝕄) = iprop((((c : Thread nD τ).loc main_arg1) ↦{fullShare} V m c main_arg1) ∗ (((c : Thread nD τ).loc main_arg2) ↦{fullShare} V m c main_arg2) ∗ (((c : Thread nD τ).loc main_arg0) ↦{fullShare} V m c main_arg0) ∗ (((c : Thread nD τ).loc main_arg3) ↦{fullShare} V m c main_arg3) ∗ (((c : Thread nD τ).loc main_arg4) ↦{fullShare} V m c main_arg4) ∗ (((c : Thread nD τ).loc main_arg5) ↦{fullShare} V m c main_arg5) ∗ (((c : Thread nD τ).loc main_v1) ↦{fullShare} V m c main_v1) ∗ (((c : Thread nD τ).loc main_v2) ↦{fullShare} V m c main_v2) ∗ (((c : Thread nD τ).loc main_v3) ↦{fullShare} V m c main_v3) ∗ (((c : Thread nD τ).loc main_arg9) ↦{fullShare} V m c main_arg9) ∗ (((c : Thread nD τ).loc main_v4) ↦{fullShare} V m c main_v4)) := by
  unfold Pipeline.arrBufs
  exact bigSep_eq_bigSepL_of_eq [main_arg1, main_arg2, main_arg0, main_arg3, main_arg4, main_arg5, main_v1, main_v2, main_v3, main_arg9, main_v4] (by decide) (by decide) _

theorem hsplit (c : Dev nD) : (Pipeline.arrBufs spec0 c (V m c) : sProp 𝕄) ⊢ (dats m 0 c).arrays ((dats m 0 c).arrAt · 0) := by
  rw [arrays_eq, bigSep_W0, arrBufs_eq]
  iintro ⟨H1, H2, H0, H3, H4, H5, Hv1, Hv2, Hv3, H9, Hv4⟩
  ihave HA := (deal5 c main_arg1 (V m c main_arg1)) $$ H1
  icases HA with ⟨A0, A1, A2, A3, A4⟩
  ihave HB := (deal5 c main_arg2 (V m c main_arg2)) $$ H2
  icases HB with ⟨B0, B1, B2, B3, B4⟩
  isplitl [A0]; · iexact A0
  isplitl [A1]; · iexact A1
  isplitl [A2]; · iexact A2
  isplitl [A3]; · iexact A3
  isplitl [A4]; · iexact A4
  isplitl [B0]; · iexact B0
  isplitl [B1]; · iexact B1
  isplitl [B2]; · iexact B2
  isplitl [B3]; · iexact B3
  isplitl [B4]; · iexact B4
  isplitl [H0]; · iexact H0
  isplitl [H3]; · iexact H3
  isplitl [H4]; · iexact H4
  isplitl [H5]; · iexact H5
  isplitl [Hv1]; · iexact Hv1
  isplitl [Hv2]; · iexact Hv2
  isplitl [Hv3]; · iexact Hv3
  isplitl [H9]; · iexact H9
  iexact Hv4

/-! ## The run and the frame -/

set_option backward.isDefEq.respectTransparency.types false in
/-- Every weakly fair execution of @main ends, with every window's array at what the proof data compute and every
    other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hin := hin m) (hout := hout m)

/-! ## The frame -/

/-! The host operations before the region write none of the arguments. -/
theorem V_main_arg0 (c : Dev nD) : V m c main_arg0 = m ((c : Thread nD τ).loc main_arg0) := by
  dsimp only [V, V0]; simp only [hostOps0, List.flatten_cons, List.flatten_nil, List.append_nil]; after_results
theorem V_main_arg1 (c : Dev nD) : V m c main_arg1 = m ((c : Thread nD τ).loc main_arg1) := by
  dsimp only [V, V0]; simp only [hostOps0, List.flatten_cons, List.flatten_nil, List.append_nil]; after_results
theorem V_main_arg2 (c : Dev nD) : V m c main_arg2 = m ((c : Thread nD τ).loc main_arg2) := by
  dsimp only [V, V0]; simp only [hostOps0, List.flatten_cons, List.flatten_nil, List.append_nil]; after_results
theorem V_main_arg3 (c : Dev nD) : V m c main_arg3 = m ((c : Thread nD τ).loc main_arg3) := by
  dsimp only [V, V0]; simp only [hostOps0, List.flatten_cons, List.flatten_nil, List.append_nil]; after_results
theorem V_main_arg4 (c : Dev nD) : V m c main_arg4 = m ((c : Thread nD τ).loc main_arg4) := by
  dsimp only [V, V0]; simp only [hostOps0, List.flatten_cons, List.flatten_nil, List.append_nil]; after_results
theorem V_main_arg5 (c : Dev nD) : V m c main_arg5 = m ((c : Thread nD τ).loc main_arg5) := by
  dsimp only [V, V0]; simp only [hostOps0, List.flatten_cons, List.flatten_nil, List.append_nil]; after_results
theorem V_main_arg6 (c : Dev nD) : V m c main_arg6 = m ((c : Thread nD τ).loc main_arg6) := by
  dsimp only [V, V0]; simp only [hostOps0, List.flatten_cons, List.flatten_nil, List.append_nil]; after_results
theorem V_main_arg7 (c : Dev nD) : V m c main_arg7 = m ((c : Thread nD τ).loc main_arg7) := by
  dsimp only [V, V0]; simp only [hostOps0, List.flatten_cons, List.flatten_nil, List.append_nil]; after_results
theorem V_main_arg8 (c : Dev nD) : V m c main_arg8 = m ((c : Thread nD τ).loc main_arg8) := by
  dsimp only [V, V0]; simp only [hostOps0, List.flatten_cons, List.flatten_nil, List.append_nil]; after_results
theorem V_main_arg9 (c : Dev nD) : V m c main_arg9 = m ((c : Thread nD τ).loc main_arg9) := by
  dsimp only [V, V0]; simp only [hostOps0, List.flatten_cons, List.flatten_nil, List.append_nil]; after_results

/-- Every weakly fair execution ends, nothing faults, and the ten argument arrays hold what they held: seven of them
    are arrays of input windows, which the library never writes, and three bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).1 10).trans (((dats m 0 c).arrAt_in 10 rfl _).trans ((A_eq m c 10).trans (V_main_arg0 m c))),
    ((h c).1 0).trans (((dats m 0 c).arrAt_in 0 rfl _).trans ((A_eq m c 0).trans (V_main_arg1 m c))),
    ((h c).1 5).trans (((dats m 0 c).arrAt_in 5 rfl _).trans ((A_eq m c 5).trans (V_main_arg2 m c))),
    ((h c).1 11).trans (((dats m 0 c).arrAt_in 11 rfl _).trans ((A_eq m c 11).trans (V_main_arg3 m c))),
    ((h c).1 12).trans (((dats m 0 c).arrAt_in 12 rfl _).trans ((A_eq m c 12).trans (V_main_arg4 m c))),
    ((h c).1 13).trans (((dats m 0 c).arrAt_in 13 rfl _).trans ((A_eq m c 13).trans (V_main_arg5 m c))),
    ((h c).2 main_arg6 (Pipeline.mem_restRefs_of main_arg6 rfl (by decide))).trans (V_main_arg6 m c),
    ((h c).2 main_arg7 (Pipeline.mem_restRefs_of main_arg7 rfl (by decide))).trans (V_main_arg7 m c),
    ((h c).2 main_arg8 (Pipeline.mem_restRefs_of main_arg8 rfl (by decide))).trans (V_main_arg8 m c),
    ((h c).1 17).trans (((dats m 0 c).arrAt_in 17 rfl _).trans ((A_eq m c 17).trans (V_main_arg9 m c)))⟩) (run_main m ρ)

end Cert.KernelIdeal.Fr

end
-- ==== Proof.KIValA.lean ====
/-
  What the body stores into the output window, as a function of what it loads.

  The run of each control case found the output buffer's pieces by itself; read back, the one covering store's
  payload is the body's arithmetic over its loads. At the first point the two scratch buffers are read right after
  they were stored whole, so those reads return the two stored projections; at every later point they are read at what
  the first point left. Either way the block stored at a point is ONE function of the scratch contents after the first
  point and of the point's input blocks.
-/
import proofs.«129832_g4337916969350_cont_sun_m_394_15_alg».proof.Proof.KIFrame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The first scratch buffer holds x·W_low of the first point's blocks, -/
theorem S0_eq (c : Dev nD) : S0 m c = k0_pay2 (iblk m c 10 t0) (iblk m c 11 t0) := by
  unfold S0
  rw [View.read_writes_eq_canon _ _ _ (scoverA0 m c)]
  unfold runA kernelRunA
  dsimp only
  sl_unfold_words
  rw [View.canon_unit_zero hz]
  simp only [View.readAt_eq_ld, (hs10 t0).read_unread, (hs11 t0).read_unread, View.ld_unit_zero (S := S10000x128) hz, View.ld_unit_zero (S := S128x128) hz]

/-- and the second x·W_high. -/
theorem S1_eq (c : Dev nD) : S1 m c = k0_pay3 (iblk m c 10 t0) (iblk m c 12 t0) := by
  unfold S1
  rw [View.read_writes_eq_canon _ _ _ (scoverA1 m c)]
  unfold runA kernelRunA
  dsimp only
  sl_unfold_words
  rw [View.canon_unit_zero hz]
  simp only [View.readAt_eq_ld, (hs10 t0).read_unread, (hs12 t0).read_unread, View.ld_unit_zero (S := S10000x128) hz, View.ld_unit_zero (S := S128x128) hz]

/-- The body's arithmetic over the scratch contents and the loaded blocks. -/
def blockVal (s0 s1 : Vec F S10000x128 .f32) (x0 : Vec F S40x10000 .f32) (x1 : Vec F S40x10000 .f32) (x2 : Vec F S40x10000 .f32) (x3 : Vec F S40x10000 .f32) (x4 : Vec F S40x10000 .f32) (x5 : Vec F S40x10000 .f32) (x6 : Vec F S40x10000 .f32) (x7 : Vec F S40x10000 .f32) (x8 : Vec F S40x10000 .f32) (x9 : Vec F S40x10000 .f32) (xrows : Vec F S200x128 .f32) (x13 : Vec F S128x128 .f32)
    (x14 x15 x16 : Vec F S128x3 .f32) (x17 : Vec F S3x3 .f32) : FVec F S200x128 .f32 :=
  k0_pay1 (k0_pay4 s0 x0 x1 x2 x3 x4) (k0_pay8 s1 (k0_pay5 s1 x5) (k0_pay6 s1 x6) (k0_pay7 s1 x7) x8 x9) (k0_pay9 xrows x13)
    (k0_pay10 s1 (k0_pay4 s0 x0 x1 x2 x3 x4) (k0_pay5 s1 x5) (k0_pay6 s1 x6) (k0_pay7 s1 x7) x8 x9 xrows x13 x14 x15 x16 x17)
    (k0_pay11 s1 (k0_pay4 s0 x0 x1 x2 x3 x4) (k0_pay5 s1 x5) (k0_pay6 s1 x6) (k0_pay7 s1 x7) x8 x9 xrows x13 x14 x15 x16 x17)

/-- The 200 rows of x the body loads at a point: rows 200·i … of the x window's block. -/
def xrowsOf (i : grid0.Coords) (x10 : Vec F S10000x128 .f32) : Vec F S200x128 .f32 :=
  View.ld x10 (Rect.unit (s := S10000x128) (k0_off1 i) S200x128.size (k0_off1_inb i))

/-- A whole scratch buffer read back holds what it was given. -/
theorem read_sc0 (x : Vec F S10000x128 .f32) :
    View.read (Elt F) (View.whole cc0_scratch0) ((Memref.isWhole_whole _ : scM0.IsWhole).unread x) = x :=
  (Memref.isWhole_whole _ : scM0.IsWhole).read_unread x
theorem read_sc1 (x : Vec F S10000x128 .f32) :
    View.read (Elt F) (View.whole cc0_scratch1) ((Memref.isWhole_whole _ : scM1.IsWhole).unread x) = x :=
  (Memref.isWhole_whole _ : scM1.IsWhole).read_unread x

/-- A LATER POINT stores the body's arithmetic at the scratch contents the first point left. -/
theorem outB_eq (c : Dev nD) (t : Fin cfg0.N) (h : ¬t.val % 50 = 0) :
    VO18.read (Elt F) (VO18.writes (Elt F) VO18.junk (runB m c t h).1)
      = blockVal (S0 m c) (S1 m c) (iblk m c 0 t) (iblk m c 1 t) (iblk m c 2 t) (iblk m c 3 t) (iblk m c 4 t) (iblk m c 5 t) (iblk m c 6 t) (iblk m c 7 t) (iblk m c 8 t) (iblk m c 9 t) (xrowsOf (grid0.coords t) (iblk m c 10 t)) (iblk m c 13 t) (iblk m c 14 t) (iblk m c 15 t) (iblk m c 16 t) (iblk m c 17 t) := by
  rw [View.read_writes_eq_canon _ _ _ (coverB18 m c t h)]
  unfold runB kernelRunB
  dsimp only
  sl_unfold_words
  rw [View.canon_unit_zero hz]
  simp only [View.readAt_eq_ld, (hs0 t).read_unread, (hs1 t).read_unread, (hs2 t).read_unread, (hs3 t).read_unread, (hs4 t).read_unread, (hs5 t).read_unread, (hs6 t).read_unread, (hs7 t).read_unread, (hs8 t).read_unread, (hs9 t).read_unread, (hs10 t).read_unread, (hs13 t).read_unread, (hs14 t).read_unread, (hs15 t).read_unread, (hs16 t).read_unread, (hs17 t).read_unread,
    read_sc0, read_sc1, View.ld_unit_zero (S := S10000x128) hz, View.ld_unit_zero (S := S128x128) hz, View.ld_unit_zero (S := S40x10000) hz,
    View.ld_unit_zero (S := S128x3) hz, View.ld_unit_zero (S := S3x3) hz]
  rfl

/-- THE FIRST POINT stores the same function: its reads of the scratch buffers return what it has just stored. -/
theorem outA_eq (c : Dev nD) :
    VO18.read (Elt F) (VO18.writes (Elt F) VO18.junk (runA m c).1)
      = blockVal (S0 m c) (S1 m c) (iblk m c 0 t0) (iblk m c 1 t0) (iblk m c 2 t0) (iblk m c 3 t0) (iblk m c 4 t0) (iblk m c 5 t0) (iblk m c 6 t0) (iblk m c 7 t0) (iblk m c 8 t0) (iblk m c 9 t0) (xrowsOf (grid0.coords t0) (iblk m c 10 t0)) (iblk m c 13 t0) (iblk m c 14 t0) (iblk m c 15 t0) (iblk m c 16 t0) (iblk m c 17 t0) := by
  rw [View.read_writes_eq_canon _ _ _ (coverA18 m c), S0_eq, S1_eq]
  unfold runA kernelRunA
  dsimp only
  sl_unfold_words
  rw [View.canon_unit_zero hz]
  simp only [View.readCov_unit_zero (S := S10000x128) _ hz, View.readAt_eq_ld, (hs0 t0).read_unread, (hs1 t0).read_unread, (hs2 t0).read_unread, (hs3 t0).read_unread, (hs4 t0).read_unread, (hs5 t0).read_unread, (hs6 t0).read_unread, (hs7 t0).read_unread, (hs8 t0).read_unread, (hs9 t0).read_unread, (hs10 t0).read_unread, (hs11 t0).read_unread, (hs12 t0).read_unread, (hs13 t0).read_unread, (hs14 t0).read_unread, (hs15 t0).read_unread, (hs16 t0).read_unread, (hs17 t0).read_unread,
    View.ld_unit_zero (S := S10000x128) hz, View.ld_unit_zero (S := S128x128) hz, View.ld_unit_zero (S := S40x10000) hz,
    View.ld_unit_zero (S := S128x3) hz, View.ld_unit_zero (S := S3x3) hz]
  rfl

/-- So at EVERY point the output window's staging buffer ends with that one function of the point's blocks. -/
theorem out18_eq (c : Dev nD) (t : Fin cfg0.N) :
    out18 m c t = blockVal (S0 m c) (S1 m c) (iblk m c 0 t) (iblk m c 1 t) (iblk m c 2 t) (iblk m c 3 t) (iblk m c 4 t) (iblk m c 5 t) (iblk m c 6 t) (iblk m c 7 t) (iblk m c 8 t) (iblk m c 9 t) (xrowsOf (grid0.coords t) (iblk m c 10 t)) (iblk m c 13 t) (iblk m c 14 t) (iblk m c 15 t) (iblk m c 16 t) (iblk m c 17 t) := by
  unfold out18
  by_cases h0 : t.val % 50 = 0
  · rw [dif_pos h0]
    obtain rfl := t0_of t h0
    exact outA_eq m c
  · rw [dif_neg h0]
    exact outB_eq m c t h0

end Cert.KernelIdeal.Fr

end
-- ==== Proof.LibPlainDot.lean ====
/-
  A plain matrix product read at an entry, on the extended reals.

  For an `m × k` matrix `A` and a `k × n` matrix `B` the product contracted over the shared axis has, at `(a, b)`, the
  value `∑ c, A (a, c) · B (c, b)`. On the extended reals a kernel's matrix unit accumulating into a zero tile and the
  host's product are this same sum: there is no rounding and no order of accumulation to tell them apart.
-/
import Idealize.ShloMosaic.PureOps.Ideal.Laws
import Idealize.ShloMosaic.Lib.ValueIdx
import Idealize.ShloMosaic.Lib.StackMember
import Idealize.ShloMosaic.Lib.ValueLayout

namespace Cert.LibPlainDot

open Idealize.ShloMosaic Idealize.ShloMosaic.ValueIdx

/-- A matrix unit's product into the zero tile is the host's product of the same operands, entry by entry. -/
theorem matmul_zero_eq_dotGeneral {sl sr so : Shape} {φ₁ φ₂ : FTy} (d : DotDims sl sr so) (prec : Option ContractPrecision)
    (A : FVec Ideal sl φ₁) (B : FVec Ideal sr φ₂) (j : so.Idx) :
    FloatOps.matmul d prec A B (constant (F := Ideal) so .f32 0x00000000#32) j = Host.dotGeneral (F := Ideal) d none A B j :=
  (Ideal.matmul_constant_zero_apply d prec A B j).trans (Ideal.dotGeneral_apply d none .single A B j).symm

/-- The plain product into the zero tile, at `(a, b)`, is `∑ c, A (a, c) · B (c, b)`. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant (F := Ideal) ⟨2, ![m, n]⟩ .f32 0x00000000#32) (ix2 a b)
      = ∑ c : Fin k, A (ix2 a c) * B (ix2 c b) :=
  (matmul_zero_eq_dotGeneral (DotDims.plain m k n) prec A B (ix2 a b)).trans
    (StackMember.dotGeneral_plain_apply none A B a b)

/-- The plain product with the right operand given transposed: at `(a, b)` it is `∑ c, A (a, c) · B (b, c)`. -/
theorem matmul_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    FloatOps.matmul (DotDims.plain m k n) prec A (transpose ⟨2, ![k, n]⟩ [1, 0] B h)
        (constant (F := Ideal) ⟨2, ![m, n]⟩ .f32 0x00000000#32) (ix2 a b)
      = ∑ c : Fin k, A (ix2 a c) * B (ix2 b c) :=
  (matmul_plain_zero_apply prec A _ a b).trans
    (Finset.sum_congr rfl fun c _ => congrArg (A (ix2 a c) * ·) (transpose_ix2_apply B h c b))

/-- The host's plain product with the right operand given transposed: at `(a, b)` it is `∑ c, A (a, c) · B (b, c)`. -/
theorem dotGeneral_plain_transposed_apply {m k n : ℕ} {φ₁ φ₂ : FTy} (prec : Option ContractPrecision)
    (A : FVec Ideal ⟨2, ![m, k]⟩ φ₁) (B : FVec Ideal ⟨2, ![n, k]⟩ φ₂)
    (h : (⟨2, ![n, k]⟩ : Shape).Transposes [1, 0] ⟨2, ![k, n]⟩) (a : Fin m) (b : Fin n) :
    Host.dotGeneral (F := Ideal) (DotDims.plain m k n) prec A (transpose ⟨2, ![k, n]⟩ [1, 0] B h) (ix2 a b)
      = ∑ c : Fin k, A (ix2 a c) * B (ix2 b c) :=
  (StackMember.dotGeneral_plain_apply prec A _ a b).trans
    (Finset.sum_congr rfl fun c _ => congrArg (A (ix2 a c) * ·) (transpose_ix2_apply B h c b))

end Cert.LibPlainDot
-- ==== Proof.StProj.lean ====
/-
  The two projections the kernel keeps in scratch are the reference's first two products.

  On the extended reals the matrix unit accumulating into a zero tile and the host's product are one function, and a
  shape cast between equal shapes is the identity: so x·W as the kernel computes it at its first grid point is, as a
  whole array, the reference's x·W.
-/
import proofs.«129832_g4337916969350_cont_sun_m_394_15_alg».proof.Proof.Gen.KernelIdeal.Skeleton
import proofs.«129832_g4337916969350_cont_sun_m_394_15_alg».proof.Proof.Gen.ReferenceIdeal.Read
import proofs.«129832_g4337916969350_cont_sun_m_394_15_alg».proof.Proof.LibPlainDot
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx

abbrev Sx := Cert.KernelIdeal.S10000x128
abbrev Sw := Cert.KernelIdeal.S128x128

/-- x·W_low in scratch is the reference's first product. -/
theorem projL_eq (X : FVec Ideal Sx .f32) (W : FVec Ideal Sw .f32) :
    Cert.KernelIdeal.Gen.k0_pay2 (F := Ideal) X W = Cert.ReferenceIdeal.Read.val_main_v0 (F := Ideal) X W := by
  funext j
  unfold Cert.KernelIdeal.Gen.k0_pay2 Cert.ReferenceIdeal.Read.val_main_v0
  dsimp only
  rw [shapeCast_self]
  exact (Cert.LibPlainDot.matmul_zero_eq_dotGeneral _ none X W j).trans rfl

/-- x·W_high in scratch is the reference's third product. -/
theorem projH_eq (X : FVec Ideal Sx .f32) (W : FVec Ideal Sw .f32) :
    Cert.KernelIdeal.Gen.k0_pay3 (F := Ideal) X W = Cert.ReferenceIdeal.Read.val_main_v3 (F := Ideal) X W := by
  funext j
  unfold Cert.KernelIdeal.Gen.k0_pay3 Cert.ReferenceIdeal.Read.val_main_v3
  dsimp only
  rw [shapeCast_self]
  exact (Cert.LibPlainDot.matmul_zero_eq_dotGeneral _ none X W j).trans rfl

end Cert.Bridge

end
-- ==== Proof.StAgg.lean ====
/-
  One row of relu(adj · (x·W)) from the kernel's five row stripes.

  The kernel multiplies five stripes of 40 rows of an adjacency matrix with the projected features, stacks the five
  products into 200 rows and clamps at zero. Row 40·s + u of the stack is row u of stripe s, which is row
  200·t + 40·s + u of the matrix: so entry (p, q) of the stack is Σ_n adj(200·t + p, n) · (x·W)(n, q), clamped — the
  reference's entry (200·t + p, q).
-/
import proofs.«129832_g4337916969350_cont_sun_m_394_15_alg».proof.Proof.StProj

noncomputable section

namespace Cert.Bridge

open Idealize.ShloMosaic Idealize.ShloMosaic.ValueIdx

abbrev Sa := Cert.KernelIdeal.S10000x10000
abbrev S40a := Cert.KernelIdeal.S40x10000
abbrev S40w := Cert.KernelIdeal.S40x128
abbrev S200w := Cert.KernelIdeal.S200x128

/-- Five tiles of 40 rows stacked: row 40·s + u of the stack is row u of tile s. -/
theorem cat5_apply {α : Type} (v : Fin 5 → (S40w.Idx → α))
    (h : Shape.Concatenates [S40w, S40w, S40w, S40w, S40w] S200w 0)
    (s : Fin 5) (u : Fin 40) (q : Fin 128) (hp : 40 * s.val + u.val < 200) :
    concatenate S200w 0 [⟨S40w, v 0⟩, ⟨S40w, v 1⟩, ⟨S40w, v 2⟩, ⟨S40w, v 3⟩, ⟨S40w, v 4⟩] h (ix2 ⟨40 * s.val + u.val, hp⟩ q)
      = v s (ix2 u q) := by
  refine concatenate_ofFn_apply (t := S200w) (s₁ := S40w) (0 : Fin 2) (N := 5) v (by exact h) rfl 40 rfl (ix2 ⟨40 * s.val + u.val, hp⟩ q) s ?_ (ix2 u q) ?_ ?_
  · show (40 * s.val + u.val) / 40 = s.val
    have := u.isLt; omega
  · show u.val = (40 * s.val + u.val) % 40
    have := u.isLt; omega
  · intro b hb
    match b with
    | ⟨0, _⟩ => exact absurd rfl hb
    | ⟨1, _⟩ => rfl

/-- A row index below 200 is 40·s + u. -/
theorem split200 (p : Fin 200) : ∃ (s : Fin 5) (u : Fin 40) (hp : 40 * s.val + u.val < 200), p = ⟨40 * s.val + u.val, hp⟩ :=
  ⟨⟨p.val / 40, by have := p.isLt; omega⟩, ⟨p.val % 40, Nat.mod_lt _ (by decide)⟩, by have := p.isLt; show 40 * (p.val / 40) + p.val % 40 < 200; omega,
    Fin.ext (by show p.val = 40 * (p.val / 40) + p.val % 40; omega)⟩

/-- Row 200·t + p of the reference's relu(adj_low · (x·W_low)) from the five stripes. -/
theorem aggL_row (X : FVec Ideal Sx .f32) (A : FVec Ideal Sa .f32) (W : FVec Ideal Sw .f32)
    (xs : Fin 5 → FVec Ideal S40a .f32) (t : Fin 50)
    (hx : ∀ (s : Fin 5) (u : Fin 40) (n : Fin 10000) (hr : 200 * t.val + 40 * s.val + u.val < 10000),
      xs s (ix2 u n) = A (ix2 ⟨200 * t.val + 40 * s.val + u.val, hr⟩ n))
    (p : Fin 200) (q : Fin 128) (hr : 200 * t.val + p.val < 10000) :
    Cert.KernelIdeal.Gen.k0_pay4 (F := Ideal) (Cert.ReferenceIdeal.Read.val_main_v0 (F := Ideal) X W) (xs 0) (xs 1) (xs 2) (xs 3) (xs 4) (ix2 p q)
      = Cert.ReferenceIdeal.Read.val_main_v2 (F := Ideal) X A W (ix2 ⟨200 * t.val + p.val, hr⟩ q) := by
  obtain ⟨s, u, hp, rfl⟩ := split200 p
  rw [Cert.ReferenceIdeal.Read.val_main_v2_apply, Cert.ReferenceIdeal.Read.val_main_v1_apply,
    Cert.ReferenceIdeal.Read.val_main_call0_v0_apply, Cert.ReferenceIdeal.Read.val_main_call0_cst_apply]
  unfold Cert.KernelIdeal.Gen.k0_pay4
  dsimp only
  refine congrArg₂ FloatOps.maximumf ?_ rfl
  refine (cat5_apply (fun s => FloatOps.matmul Cert.KernelIdeal.dot_S40x10000_S10000x128_S40x128_1_0_0_1_n_n none (xs s)
      (Cert.ReferenceIdeal.Read.val_main_v0 (F := Ideal) X W) (constant (F := Ideal) S40w .f32 0x00000000#32)) _ s u q hp).trans ?_
  refine (Cert.LibPlainDot.matmul_plain_zero_apply (m := 40) (k := 10000) (n := 128) none (xs s) (Cert.ReferenceIdeal.Read.val_main_v0 (F := Ideal) X W) u q).trans ?_
  refine Finset.sum_congr rfl fun n _ => ?_
  rw [hx s u n (by have := u.isLt; have := s.isLt; have := t.isLt; omega)]
  refine congrArg₂ (· * ·) (congrArg A ?_) (congrArg _ ?_)
  · exact funext fun a => Fin.ext (by match a with | ⟨0, _⟩ => (show 200 * t.val + 40 * s.val + u.val = 200 * t.val + (40 * s.val + u.val); omega) | ⟨1, _⟩ => rfl)
  · exact funext fun a => Fin.ext (by match a with | ⟨0, _⟩ => rfl | ⟨1, _⟩ => rfl)

end Cert.Bridge

end
-- ==== Proof.StFeat.lean ====
/-
  The three attention features of a row.

  The reference multiplies each of the three clamped feature matrices with its own attention column and puts the three
  results side by side. The kernel instead pads each attention column with two zero columns, in its own position, and
  adds the three [rows, 3] products: in column c only the c-th summand is not a sum of products with zero, and on the
  extended reals y · 0 = 0 for every y and s + 0 = s, so column c of the sum is the c-th product. No finiteness is used.
-/
import proofs.«129832_g4337916969350_cont_sun_m_394_15_alg».proof.Proof.StAgg

noncomputable section

namespace Cert.Bridge

open Idealize.ShloMosaic Idealize.ShloMosaic.ValueIdx
open Cert.KernelIdeal.Facts₀

abbrev S128c := Cert.KernelIdeal.S128x1
abbrev S128t := Cert.KernelIdeal.S128x3
abbrev S200t := Cert.KernelIdeal.S200x3
abbrev S33 := Cert.KernelIdeal.S3x3

/-- Row p of the block of grid point t is row 200·t + p of the whole array. -/
def rowIdx (t : Fin 50) (p : Fin 200) : Fin 10000 := ⟨200 * t.val + p.val, by have := t.isLt; have := p.isLt; omega⟩

/-- A tile of 200 rows holds the rows of block t of an array. -/
def RowsOf {C : ℕ} (t : Fin 50) (T : (⟨2, ![200, C]⟩ : Shape).Idx → EReal) (R : (⟨2, ![10000, C]⟩ : Shape).Idx → EReal) : Prop :=
  ∀ (p : Fin 200) (c : Fin C), T (ix2 p c) = R (ix2 (rowIdx t p) c)

/-- Three one-column matrices side by side: column c is matrix c. -/
theorem cat3col_apply {α : Type} {n : ℕ} (v : Fin 3 → ((⟨2, ![n, 1]⟩ : Shape).Idx → α))
    (h : Shape.Concatenates [(⟨2, ![n, 1]⟩ : Shape), ⟨2, ![n, 1]⟩, ⟨2, ![n, 1]⟩] ⟨2, ![n, 3]⟩ 1) (j : Fin n) (c : Fin 3) :
    concatenate ⟨2, ![n, 3]⟩ 1 [⟨⟨2, ![n, 1]⟩, v 0⟩, ⟨⟨2, ![n, 1]⟩, v 1⟩, ⟨⟨2, ![n, 1]⟩, v 2⟩] h (ix2 j c) = v c (ix2 j (0 : Fin 1)) := by
  refine concatenate_ofFn_apply (t := ⟨2, ![n, 3]⟩) (s₁ := ⟨2, ![n, 1]⟩) (1 : Fin 2) (N := 3) v (by exact h) rfl 1 rfl (ix2 j c) c ?_ (ix2 j (0 : Fin 1)) ?_ ?_
  · show c.val / 1 = c.val
    exact Nat.div_one _
  · show (0 : ℕ) = c.val % 1
    exact (Nat.mod_one _).symm
  · intro b hb
    match b with
    | ⟨0, _⟩ => rfl
    | ⟨1, _⟩ => exact absurd rfl hb

/-- The zero column the kernel's host code pads with. -/
def zcol : FVec Ideal S128c .f32 := broadcastInDim S128c ![] bcast_S_S128x1 (constant (F := Ideal) Cert.KernelIdeal.S_ .f32 0x00000000#32)

theorem zcol_apply (i : S128c.Idx) : zcol i = 0 := by
  unfold zcol
  rw [broadcastInDim_apply _ bcast_S_S128x1 _ i ix0 (fun a => a.elim0), constant_apply, Ideal.ofBits_zero_f32]

/-- The three padded attention matrices. -/
def pad (v : Fin 3 → FVec Ideal S128c .f32) : FVec Ideal S128t .f32 :=
  concatenate S128t 1 [⟨S128c, v 0⟩, ⟨S128c, v 1⟩, ⟨S128c, v 2⟩] concatenates_S128x1_S128x1_S128x1_S128x3_d1

theorem pad_apply (v : Fin 3 → FVec Ideal S128c .f32) (j : Fin 128) (c : Fin 3) : pad v (ix2 j c) = v c (ix2 j (0 : Fin 1)) :=
  cat3col_apply (n := 128) v _ j c

/-- The kernel's features: the sum of the three products with the padded attention matrices. -/
def kF (OL OH OM : FVec Ideal S200w .f32) (CL CH CM : FVec Ideal S128t .f32) : FVec Ideal S200t .f32 :=
  addf (addf
    (matmul Cert.KernelIdeal.dot_S200x128_S128x3_S200x3_1_0_0_1_n_n none OL (shapeCast S128t CL shapeCasts_S128x3_S128x3) (constant S200t .f32 0x00000000#32))
    (matmul Cert.KernelIdeal.dot_S200x128_S128x3_S200x3_1_0_0_1_n_n none OH (shapeCast S128t CH shapeCasts_S128x3_S128x3) (constant S200t .f32 0x00000000#32)))
    (matmul Cert.KernelIdeal.dot_S200x128_S128x3_S200x3_1_0_0_1_n_n none OM (shapeCast S128t CM shapeCasts_S128x3_S128x3) (constant S200t .f32 0x00000000#32))

/-- One product with a padded attention matrix, at (p, c). -/
theorem padded_dot_apply (O : FVec Ideal S200w .f32) (v : Fin 3 → FVec Ideal S128c .f32) (p : Fin 200) (c : Fin 3) :
    matmul Cert.KernelIdeal.dot_S200x128_S128x3_S200x3_1_0_0_1_n_n none O (shapeCast S128t (pad v) shapeCasts_S128x3_S128x3) (constant S200t .f32 0x00000000#32) (ix2 p c)
      = ∑ j : Fin 128, O (ix2 p j) * v c (ix2 j (0 : Fin 1)) := by
  refine (Cert.LibPlainDot.matmul_plain_zero_apply (m := 200) (k := 128) (n := 3) none O _ p c).trans ?_
  refine Finset.sum_congr rfl fun j _ => ?_
  rw [shapeCast_self, pad_apply]

/-- A sum of products with zero is zero. -/
theorem sum_mul_zcol (O : FVec Ideal S200w .f32) (p : Fin 200) : ∑ j : Fin 128, O (ix2 p j) * zcol (ix2 j (0 : Fin 1)) = 0 :=
  Finset.sum_eq_zero fun j _ => by rw [zcol_apply, mul_zero]

/-- The features of row 200·t + p. -/
theorem feat_row (X : FVec Ideal Sx .f32) (AL AH : FVec Ideal Sa .f32) (WL WH WM : FVec Ideal Sw .f32)
    (a6 a7 a8 : FVec Ideal S128c .f32) (t : Fin 50) (OL OH OM : FVec Ideal S200w .f32)
    (hL : RowsOf t OL (Cert.ReferenceIdeal.Read.val_main_v2 (F := Ideal) X AL WL))
    (hH : RowsOf t OH (Cert.ReferenceIdeal.Read.val_main_v5 (F := Ideal) X AH WH))
    (hM : RowsOf t OM (Cert.ReferenceIdeal.Read.val_main_v7 (F := Ideal) X WM)) :
    RowsOf t (kF OL OH OM (pad ![a6, zcol, zcol]) (pad ![zcol, a7, zcol]) (pad ![zcol, zcol, a8]))
      (Cert.ReferenceIdeal.Read.val_main_v11 (F := Ideal) X AL AH WL WH WM a6 a7 a8) := by
  intro p c
  unfold kF
  rw [addf_apply, addf_apply, padded_dot_apply, padded_dot_apply, padded_dot_apply]
  unfold Cert.ReferenceIdeal.Read.val_main_v11
  refine Eq.trans ?_ (cat3col_apply (n := 10000) ![Cert.ReferenceIdeal.Read.val_main_v8 (F := Ideal) X AL WL a6, Cert.ReferenceIdeal.Read.val_main_v9 (F := Ideal) X AH WH a7, Cert.ReferenceIdeal.Read.val_main_v10 (F := Ideal) X WM a8] _ (rowIdx t p) c).symm
  have eL : ∀ k : Fin 128, Cert.ReferenceIdeal.Read.lidx_main_v8 (ix2 (rowIdx t p) (0 : Fin 1)) k = ix2 (rowIdx t p) k :=
    fun k => funext fun a => Fin.ext (by match a with | ⟨0, _⟩ => rfl | ⟨1, _⟩ => rfl)
  have eR : ∀ k : Fin 128, Cert.ReferenceIdeal.Read.ridx_main_v8 (ix2 (rowIdx t p) (0 : Fin 1)) k = ix2 k (0 : Fin 1) :=
    fun k => funext fun a => Fin.ext (by match a with | ⟨0, _⟩ => rfl | ⟨1, _⟩ => rfl)
  fin_cases c
  · show (∑ j : Fin 128, OL (ix2 p j) * a6 (ix2 j (0 : Fin 1))) + (∑ j : Fin 128, OH (ix2 p j) * zcol (ix2 j (0 : Fin 1))) + (∑ j : Fin 128, OM (ix2 p j) * zcol (ix2 j (0 : Fin 1)))
      = Cert.ReferenceIdeal.Read.val_main_v8 (F := Ideal) X AL WL a6 (ix2 (rowIdx t p) (0 : Fin 1))
    rw [sum_mul_zcol, sum_mul_zcol, add_zero, add_zero, Cert.ReferenceIdeal.Read.val_main_v8_apply]
    exact Finset.sum_congr rfl fun k _ => by rw [hL p k]; exact congrArg₂ (· * ·) (congrArg _ (eL k).symm) (congrArg a6 (eR k).symm)
  · show (∑ j : Fin 128, OL (ix2 p j) * zcol (ix2 j (0 : Fin 1))) + (∑ j : Fin 128, OH (ix2 p j) * a7 (ix2 j (0 : Fin 1))) + (∑ j : Fin 128, OM (ix2 p j) * zcol (ix2 j (0 : Fin 1)))
      = Cert.ReferenceIdeal.Read.val_main_v9 (F := Ideal) X AH WH a7 (ix2 (rowIdx t p) (0 : Fin 1))
    rw [sum_mul_zcol, sum_mul_zcol, zero_add, add_zero, Cert.ReferenceIdeal.Read.val_main_v9_apply]
    exact Finset.sum_congr rfl fun k _ => by rw [hH p k]; exact congrArg₂ (· * ·) (congrArg _ (eL k).symm) (congrArg a7 (eR k).symm)
  · show (∑ j : Fin 128, OL (ix2 p j) * zcol (ix2 j (0 : Fin 1))) + (∑ j : Fin 128, OH (ix2 p j) * zcol (ix2 j (0 : Fin 1))) + (∑ j : Fin 128, OM (ix2 p j) * a8 (ix2 j (0 : Fin 1)))
      = Cert.ReferenceIdeal.Read.val_main_v10 (F := Ideal) X WM a8 (ix2 (rowIdx t p) (0 : Fin 1))
    rw [sum_mul_zcol, sum_mul_zcol, add_zero, zero_add, Cert.ReferenceIdeal.Read.val_main_v10_apply]
    exact Finset.sum_congr rfl fun k _ => by rw [hM p k]; exact congrArg₂ (· * ·) (congrArg _ (eL k).symm) (congrArg a8 (eR k).symm)

end Cert.Bridge

end
-- ==== Proof.LibKeepdims.lean ====
/-
  Keep-dimension layout operations and row reductions of a matrix, read at an index given by coordinates.
  A row statistic of an [a, b] matrix (a maximum or a sum along the columns) is a vector of length a; kept as a
  column it is cast to [a, 1] and broadcast back over the b columns. Read at (p, c) each step is the identity on
  the row coordinate: the cast reads the vector at p, the broadcast reads the column at (p, 0), and the reductions
  are the fold of max from the start word, and the sum, over the b entries of row p.
-/
import Idealize.ShloMosaic.Lib.ValueIdx
import Idealize.ShloMosaic.Lib.ValueLayout
import Idealize.ShloMosaic.PureOps.Ideal.Laws

namespace Idealize.ShloMosaic.ValueIdx

open Idealize.ShloMosaic

variable {α : Type}

/-- A vector of length `a` cast to the column shape `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a one-axis reduction along the columns inserts: row `p`, column `k`. -/
theorem lift_cols {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- The maximum along the columns of an `[a, b]` matrix at row `p`: the fold of max, from the start word, over the
    row's entries. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  have e : (src ∘ h.lift (ix1 p) : Fin b → EReal) = fun k => src (ix2 p k) :=
    funext fun k => congrArg src (lift_cols h p k)
  exact congrArg (fun f : Fin b → EReal => (Finset.univ : Finset (Fin b)).fold max (Ideal.ofBits φ acc) f) e

/-- The sum along the columns of an `[a, b]` matrix at row `p`: the sum of the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (lift_cols h p k)

end Idealize.ShloMosaic.ValueIdx
-- ==== Proof.StAtt.lean ====
/-
  The attention weights of a row.

  From the three features of a row both programs compute: the sigmoid of each, the product with the 3×3 mixing
  matrix divided by the temperature 3, and the softmax over the three columns (subtract the row maximum, exponentiate,
  divide by the row's sum). The kernel's single sigmoid operation is by definition 1 / (1 + e^(−x)), which is what the
  reference spells out; the kernel's lane reductions and the host's reductions are the same fold of max from −∞ and the
  same sum over the three entries of the row. So the weights of row p of block t are those of row 200·t + p.
-/
import proofs.«129832_g4337916969350_cont_sun_m_394_15_alg».proof.Proof.StFeat
import proofs.«129832_g4337916969350_cont_sun_m_394_15_alg».proof.Proof.LibKeepdims

noncomputable section

namespace Cert.Bridge

open Idealize.ShloMosaic Idealize.ShloMosaic.ValueIdx
open Cert.KernelIdeal.Facts₀

abbrev S200v := Cert.KernelIdeal.S200
abbrev S200c := Cert.KernelIdeal.S200x1

variable (X : FVec Ideal Sx .f32) (AL AH : FVec Ideal Sa .f32) (WL WH WM : FVec Ideal Sw .f32)
  (a6 a7 a8 : FVec Ideal S128c .f32) (AV : FVec Ideal S33 .f32) (t : Fin 50)

/-- The f32 pattern of one denotes 1. -/
theorem one_f32 : Ideal.ofBits .f32 0x3F800000#32 = (1 : EReal) := by
  simp [Ideal.ofBits, Ideal.ieee, -EReal.coe_mul]; norm_num

/-! ## The sigmoid -/

def kS (Fm : FVec Ideal S200t .f32) : FVec Ideal S200t .f32 := logistic Fm

theorem sig_row (Fm : FVec Ideal S200t .f32) (h : RowsOf t Fm (Cert.ReferenceIdeal.Read.val_main_v11 (F := Ideal) X AL AH WL WH WM a6 a7 a8)) :
    RowsOf t (kS Fm) (Cert.ReferenceIdeal.Read.val_main_v17 (F := Ideal) X AL AH WL WH WM a6 a7 a8) := by
  intro p c
  show Ideal.logistic (Fm (ix2 p c)) = _
  rw [h p c, Cert.ReferenceIdeal.Read.val_main_v17_apply, Cert.ReferenceIdeal.Read.val_main_v16_apply, Cert.ReferenceIdeal.Read.val_main_cst_0_apply, Cert.ReferenceIdeal.Read.val_main_v15_apply,
    Cert.ReferenceIdeal.Read.val_main_v14_apply, Cert.ReferenceIdeal.Read.val_main_cst_apply, Cert.ReferenceIdeal.Read.val_main_v13_apply, Cert.ReferenceIdeal.Read.val_main_v12_apply]
  show Ideal.div 1 (1 + Ideal.exp (-_)) = Ideal.div (Ideal.ofBits .f32 0x3F800000#32) (Ideal.ofBits .f32 0x3F800000#32 + Ideal.exp (-_))
  rw [one_f32]

/-! ## The logits -/

def kL (S : FVec Ideal S200t .f32) (AV : FVec Ideal S33 .f32) : FVec Ideal S200t .f32 :=
  divf (matmul Cert.KernelIdeal.dot_S200x3_S3x3_S200x3_1_0_0_1_n_n none S AV (constant S200t .f32 0x00000000#32))
    (broadcast S200t (Scalar.ofBits .f32 0x40400000#32))

theorem logit_row (S : FVec Ideal S200t .f32) (h : RowsOf t S (Cert.ReferenceIdeal.Read.val_main_v17 (F := Ideal) X AL AH WL WH WM a6 a7 a8)) :
    RowsOf t (kL S AV) (Cert.ReferenceIdeal.Read.val_main_v20 (F := Ideal) X AL AH WL WH WM a6 a7 a8 AV) := by
  intro p c
  unfold kL
  rw [divf_apply, Cert.ReferenceIdeal.Read.val_main_v20_apply, Cert.ReferenceIdeal.Read.val_main_v19_apply, Cert.ReferenceIdeal.Read.val_main_cst_1_apply, Cert.ReferenceIdeal.Read.val_main_v18_apply]
  refine congrArg₂ Ideal.div ?_ rfl
  refine (Cert.LibPlainDot.matmul_plain_zero_apply (m := 200) (k := 3) (n := 3) none S AV p c).trans ?_
  refine Finset.sum_congr rfl fun d _ => ?_
  rw [h p d]
  refine congrArg₂ (· * ·) (congrArg _ ?_) (congrArg AV ?_)
  · exact funext fun a => Fin.ext (by match a with | ⟨0, _⟩ => rfl | ⟨1, _⟩ => rfl)
  · exact funext fun a => Fin.ext (by match a with | ⟨0, _⟩ => rfl | ⟨1, _⟩ => rfl)

/-! ## The row maximum, repeated over the three columns -/

def kMx (L : FVec Ideal S200t .f32) : FVec Ideal S200t .f32 :=
  broadcastTo S200t (shapeCast S200c (maximumf (broadcast S200v (Scalar.ofBits .f32 0xFF800000#32))
    (multiReduction .maximumf [1] S200v L 0xFF800000#32 reduces_S200x3_S200 (.inl rfl) rfl)) shapeCasts_S200_S200x1) broadcasts_S200x1_S200x3

/-- The kernel's side: the maximum with −∞ of the fold of max from −∞ over the row. -/
theorem kMx_apply (L : FVec Ideal S200t .f32) (p : Fin 200) (c : Fin 3) :
    kMx L (ix2 p c) = max (Ideal.ofBits .f32 0xFF800000#32)
      ((Finset.univ : Finset (Fin 3)).fold max (Ideal.ofBits .f32 0xFF800000#32) (fun k => L (ix2 p k))) := by
  unfold kMx
  rw [broadcastTo_a1_ab_apply (a := 200) (b := 3), shapeCast_a_a1_apply (a := 200), maximumf_apply, broadcast_apply]
  exact congrArg (max _) (rowMax_apply (a := 200) (b := 3) L _ _ _ _ p)

/-- The host's side: the same, at a row of the whole array. -/
theorem hostMax_apply (Lr : FVec Ideal Cert.ReferenceIdeal.S10000x3 .f32) (r : Fin 10000) :
    Host.reduce FloatOps.maximumf Lr (Cert.ReferenceIdeal.Read.val_main_cst_2 (F := Ideal)) Cert.ReferenceIdeal.Facts₀.reducesTo_S10000x3_S10000_d1 Cert.ReferenceIdeal.Facts₀.h_S_ (ix1 r)
      = (Finset.univ : Finset (Fin 3)).fold max (Ideal.ofBits .f32 0xFF800000#32) (fun k => Lr (ix2 r k)) := by
  have hred : Cert.ReferenceIdeal.S10000x3.Reduces [1] Cert.ReferenceIdeal.S10000 := by decide
  rw [Host.reduce_eq_fold_single FloatOps.maximumf Lr _ Cert.ReferenceIdeal.Facts₀.reducesTo_S10000x3_S10000_d1 hred Cert.ReferenceIdeal.Facts₀.h_S_]
  have e : (Lr ∘ hred.lift (ix1 r) : Fin 3 → EReal) = fun k => Lr (ix2 r k) :=
    funext fun k => congrArg Lr (lift_cols (a := 10000) (b := 3) hred r k)
  exact congrArg (fun f : Fin 3 → EReal => (Finset.univ : Finset (Fin 3)).fold max (Ideal.ofBits .f32 0xFF800000#32) f) e

theorem max_row (L : FVec Ideal S200t .f32) (h : RowsOf t L (Cert.ReferenceIdeal.Read.val_main_v20 (F := Ideal) X AL AH WL WH WM a6 a7 a8 AV)) :
    RowsOf t (kMx L) (Cert.ReferenceIdeal.Read.val_main_v25 (F := Ideal) X AL AH WL WH WM a6 a7 a8 AV) := by
  intro p c
  rw [kMx_apply, Cert.ReferenceIdeal.Read.val_main_v25_apply, Cert.ReferenceIdeal.Read.val_main_v24_apply, Cert.ReferenceIdeal.Read.val_main_v23_apply, Cert.ReferenceIdeal.Read.val_main_v22_apply, Cert.ReferenceIdeal.Read.val_main_cst_3_apply]
  have ej : Cert.ReferenceIdeal.Read.idx_main_v24 (Cert.ReferenceIdeal.Read.idx_main_v25 (ix2 (rowIdx t p) c)) = ix1 (rowIdx t p) :=
    funext fun a => Fin.ext (by match a with | ⟨0, _⟩ => rfl)
  rw [ej]
  unfold Cert.ReferenceIdeal.Read.val_main_v21
  rw [hostMax_apply]
  show max _ _ = max _ _
  refine congrArg (max (Ideal.ofBits .f32 0xFF800000#32)) ?_
  exact congrArg (fun f : Fin 3 → EReal => (Finset.univ : Finset (Fin 3)).fold max (Ideal.ofBits .f32 0xFF800000#32) f) (funext fun k => h p k)

/-! ## The softmax -/

def kE (L Mx : FVec Ideal S200t .f32) : FVec Ideal S200t .f32 := exp (subf L Mx)

def kA (L Mx : FVec Ideal S200t .f32) : FVec Ideal S200t .f32 :=
  divf (kE L Mx) (broadcastTo S200t (shapeCast S200c (multiReduction .add [1] S200v (kE L Mx) 0x00000000#32 reduces_S200x3_S200 (.inl rfl) rfl)
    shapeCasts_S200_S200x1) broadcasts_S200x1_S200x3)

theorem exp_row (L Mx : FVec Ideal S200t .f32) (hL : RowsOf t L (Cert.ReferenceIdeal.Read.val_main_v20 (F := Ideal) X AL AH WL WH WM a6 a7 a8 AV))
    (hM : RowsOf t Mx (Cert.ReferenceIdeal.Read.val_main_v25 (F := Ideal) X AL AH WL WH WM a6 a7 a8 AV)) :
    RowsOf t (kE L Mx) (Cert.ReferenceIdeal.Read.val_main_v27 (F := Ideal) X AL AH WL WH WM a6 a7 a8 AV) := by
  intro p c
  show Ideal.exp (L (ix2 p c) - Mx (ix2 p c)) = _
  rw [hL p c, hM p c, Cert.ReferenceIdeal.Read.val_main_v27_apply, Cert.ReferenceIdeal.Read.val_main_v26_apply]
  rfl

theorem att_row (L Mx : FVec Ideal S200t .f32) (hL : RowsOf t L (Cert.ReferenceIdeal.Read.val_main_v20 (F := Ideal) X AL AH WL WH WM a6 a7 a8 AV))
    (hM : RowsOf t Mx (Cert.ReferenceIdeal.Read.val_main_v25 (F := Ideal) X AL AH WL WH WM a6 a7 a8 AV)) :
    RowsOf t (kA L Mx) (Cert.ReferenceIdeal.Read.val_main_v31 (F := Ideal) X AL AH WL WH WM a6 a7 a8 AV) := by
  have hE := exp_row X AL AH WL WH WM a6 a7 a8 AV t L Mx hL hM
  intro p c
  have hs : multiReduction .add [1] S200v (kE L Mx) 0x00000000#32 reduces_S200x3_S200 (.inl rfl) rfl (ix1 p) = ∑ k : Fin 3, kE L Mx (ix2 p k) :=
    rowSum_apply (a := 200) (b := 3) (kE L Mx) _ _ _ _ p
  unfold kA
  rw [divf_apply, broadcastTo_a1_ab_apply (a := 200) (b := 3), shapeCast_a_a1_apply (a := 200)]
  refine (congrArg (Ideal.div _) hs).trans ?_
  rw [Cert.ReferenceIdeal.Read.val_main_v31_apply, Cert.ReferenceIdeal.Read.val_main_v30_apply, Cert.ReferenceIdeal.Read.val_main_v29_apply, Cert.ReferenceIdeal.Read.val_main_v28_apply, Cert.ReferenceIdeal.Read.val_main_cst_4_apply]
  show Ideal.div _ _ = Ideal.div _ _
  rw [hE p c]
  refine congrArg (Ideal.div _) ?_
  show _ = Ideal.ofBits .f32 0x00000000#32 + _
  rw [Ideal.ofBits_zero_f32, zero_add]
  refine Finset.sum_congr rfl fun k _ => ?_
  rw [hE p k]
  exact congrArg _ (funext fun a => Fin.ext (by match a with | ⟨0, _⟩ => rfl | ⟨1, _⟩ => rfl))

end Cert.Bridge

end
-- ==== Proof.StOut.lean ====
/-
  One block of 200 output rows is the reference's rows 200·t … 200·t + 199.

  The output row is 3 · (w₀ · low + w₁ · high + w₂ · mlp) with the row's three attention weights repeated along the 128
  columns: the same expression on both sides, read at (p, q) on the kernel's side and at (200·t + p, q) on the
  reference's. With the rows of the three clamped feature matrices and of the weights identified stage by stage, the
  whole block follows.
-/
import proofs.«129832_g4337916969350_cont_sun_m_394_15_alg».proof.Proof.StAtt

noncomputable section

namespace Cert.Bridge

open Idealize.ShloMosaic Idealize.ShloMosaic.ValueIdx
open Cert.KernelIdeal.Facts₀

variable (X : FVec Ideal Sx .f32) (AL AH : FVec Ideal Sa .f32) (WL WH WM : FVec Ideal Sw .f32)
  (a6 a7 a8 : FVec Ideal S128c .f32) (AV : FVec Ideal S33 .f32) (t : Fin 50)

/-- Row 200·t + p of the reference's relu(adj_high · (x·W_high)) from the five stripes. -/
theorem aggH_row (xs : Fin 5 → FVec Ideal S40a .f32)
    (hx : ∀ (s : Fin 5) (u : Fin 40) (n : Fin 10000) (hr : 200 * t.val + 40 * s.val + u.val < 10000),
      xs s (ix2 u n) = AH (ix2 ⟨200 * t.val + 40 * s.val + u.val, hr⟩ n)) :
    RowsOf t (Cert.KernelIdeal.Gen.k0_pay8 (F := Ideal) (Cert.ReferenceIdeal.Read.val_main_v3 (F := Ideal) X WH)
        (Cert.KernelIdeal.Gen.k0_pay5 (F := Ideal) (Cert.ReferenceIdeal.Read.val_main_v3 (F := Ideal) X WH) (xs 0))
        (Cert.KernelIdeal.Gen.k0_pay6 (F := Ideal) (Cert.ReferenceIdeal.Read.val_main_v3 (F := Ideal) X WH) (xs 1))
        (Cert.KernelIdeal.Gen.k0_pay7 (F := Ideal) (Cert.ReferenceIdeal.Read.val_main_v3 (F := Ideal) X WH) (xs 2)) (xs 3) (xs 4))
      (Cert.ReferenceIdeal.Read.val_main_v5 (F := Ideal) X AH WH) := by
  intro p q
  obtain ⟨s, u, hp, rfl⟩ := split200 p
  rw [Cert.ReferenceIdeal.Read.val_main_v5_apply, Cert.ReferenceIdeal.Read.val_main_v4_apply, Cert.ReferenceIdeal.Read.val_main_call1_v0_apply, Cert.ReferenceIdeal.Read.val_main_call1_cst_apply]
  unfold Cert.KernelIdeal.Gen.k0_pay8 Cert.KernelIdeal.Gen.k0_pay5 Cert.KernelIdeal.Gen.k0_pay6 Cert.KernelIdeal.Gen.k0_pay7
  dsimp only
  refine congrArg₂ FloatOps.maximumf ?_ rfl
  refine (cat5_apply (fun s => FloatOps.matmul Cert.KernelIdeal.dot_S40x10000_S10000x128_S40x128_1_0_0_1_n_n none (xs s)
      (Cert.ReferenceIdeal.Read.val_main_v3 (F := Ideal) X WH) (constant (F := Ideal) S40w .f32 0x00000000#32)) _ s u q hp).trans ?_
  refine (Cert.LibPlainDot.matmul_plain_zero_apply (m := 40) (k := 10000) (n := 128) none (xs s) (Cert.ReferenceIdeal.Read.val_main_v3 (F := Ideal) X WH) u q).trans ?_
  refine Finset.sum_congr rfl fun n _ => ?_
  rw [hx s u n (by have := u.isLt; have := s.isLt; have := t.isLt; omega)]
  refine congrArg₂ (· * ·) (congrArg AH ?_) (congrArg _ ?_)
  · exact funext fun a => Fin.ext (by match a with | ⟨0, _⟩ => (show 200 * t.val + 40 * s.val + u.val = 200 * t.val + (40 * s.val + u.val); omega) | ⟨1, _⟩ => rfl)
  · exact funext fun a => Fin.ext (by match a with | ⟨0, _⟩ => rfl | ⟨1, _⟩ => rfl)

/-- The low-pass rows, as a row correspondence. -/
theorem aggL_rows (xs : Fin 5 → FVec Ideal S40a .f32)
    (hx : ∀ (s : Fin 5) (u : Fin 40) (n : Fin 10000) (hr : 200 * t.val + 40 * s.val + u.val < 10000),
      xs s (ix2 u n) = AL (ix2 ⟨200 * t.val + 40 * s.val + u.val, hr⟩ n)) :
    RowsOf t (Cert.KernelIdeal.Gen.k0_pay4 (F := Ideal) (Cert.ReferenceIdeal.Read.val_main_v0 (F := Ideal) X WL) (xs 0) (xs 1) (xs 2) (xs 3) (xs 4))
      (Cert.ReferenceIdeal.Read.val_main_v2 (F := Ideal) X AL WL) :=
  fun p q => aggL_row X AL WL xs t hx p q (rowIdx t p).isLt

/-- Row 200·t + p of the reference's relu(x · W_mlp) from the 200 rows of x the body loads. -/
theorem mlp_row (xrows : FVec Ideal S200w .f32) (hrows : RowsOf t xrows X) :
    RowsOf t (Cert.KernelIdeal.Gen.k0_pay9 (F := Ideal) xrows WM) (Cert.ReferenceIdeal.Read.val_main_v7 (F := Ideal) X WM) := by
  intro p q
  rw [Cert.ReferenceIdeal.Read.val_main_v7_apply, Cert.ReferenceIdeal.Read.val_main_v6_apply, Cert.ReferenceIdeal.Read.val_main_call2_v0_apply, Cert.ReferenceIdeal.Read.val_main_call2_cst_apply]
  unfold Cert.KernelIdeal.Gen.k0_pay9
  dsimp only
  refine congrArg₂ FloatOps.maximumf ?_ rfl
  refine (Cert.LibPlainDot.matmul_plain_zero_apply (m := 200) (k := 128) (n := 128) none xrows WM p q).trans ?_
  refine Finset.sum_congr rfl fun k _ => ?_
  rw [hrows p k]
  refine congrArg₂ (· * ·) (congrArg X ?_) (congrArg WM ?_)
  · exact funext fun a => Fin.ext (by match a with | ⟨0, _⟩ => rfl | ⟨1, _⟩ => rfl)
  · exact funext fun a => Fin.ext (by match a with | ⟨0, _⟩ => rfl | ⟨1, _⟩ => rfl)

/-! ## The output row -/

def kOut (A : FVec Ideal S200t .f32) (OL OH OM : FVec Ideal S200w .f32) : FVec Ideal S200w .f32 :=
  mulf (broadcast S200w (Scalar.ofBits .f32 0x40400000#32))
    (addf (addf
      (mulf (broadcastTo S200w (extractStridedSlice S200c ![0, 0] A slices_S200x3_o0_0_S200x1) broadcasts_S200x1_S200x128) OL)
      (mulf (broadcastTo S200w (extractStridedSlice S200c ![0, 1] A slices_S200x3_o0_1_S200x1) broadcasts_S200x1_S200x128) OH))
      (mulf (broadcastTo S200w (extractStridedSlice S200c ![0, 2] A slices_S200x3_o0_2_S200x1) broadcasts_S200x1_S200x128) OM))

/-- One weight column repeated over the 128 columns, at (p, q), is the weight at (p, c₀). -/
theorem wcol_apply (A : FVec Ideal S200t .f32) (k : ℕ) (hk : k < 3) (hs : S200t.Slices ![0, k] S200c) (p : Fin 200) (q : Fin 128) :
    broadcastTo S200w (extractStridedSlice S200c ![0, k] A hs) broadcasts_S200x1_S200x128 (ix2 p q) = A (ix2 p ⟨k, hk⟩) := by
  rw [broadcastTo_a1_ab_apply (a := 200) (b := 128)]
  exact extractStridedSlice_apply ![0, k] A hs (ix2 p (0 : Fin 1)) (ix2 p ⟨k, hk⟩) (fun a => by
    match a with
    | ⟨0, _⟩ => show p.val = 0 + p.val; omega
    | ⟨1, _⟩ => show k = k + 0; omega)

theorem out_row (A : FVec Ideal S200t .f32) (OL OH OM : FVec Ideal S200w .f32)
    (hA : RowsOf t A (Cert.ReferenceIdeal.Read.val_main_v31 (F := Ideal) X AL AH WL WH WM a6 a7 a8 AV))
    (hL : RowsOf t OL (Cert.ReferenceIdeal.Read.val_main_v2 (F := Ideal) X AL WL))
    (hH : RowsOf t OH (Cert.ReferenceIdeal.Read.val_main_v5 (F := Ideal) X AH WH))
    (hM : RowsOf t OM (Cert.ReferenceIdeal.Read.val_main_v7 (F := Ideal) X WM)) :
    RowsOf t (kOut A OL OH OM) (Cert.ReferenceIdeal.Read.val_main_v44 (F := Ideal) X AL AH WL WH WM a6 a7 a8 AV) := by
  intro p q
  have w0 : broadcastTo S200w (extractStridedSlice S200c ![0, 0] A slices_S200x3_o0_0_S200x1) broadcasts_S200x1_S200x128 (ix2 p q) = A (ix2 p (0 : Fin 3)) :=
    wcol_apply A 0 (by decide) _ p q
  have w1 : broadcastTo S200w (extractStridedSlice S200c ![0, 1] A slices_S200x3_o0_1_S200x1) broadcasts_S200x1_S200x128 (ix2 p q) = A (ix2 p (1 : Fin 3)) :=
    wcol_apply A 1 (by decide) _ p q
  have w2 : broadcastTo S200w (extractStridedSlice S200c ![0, 2] A slices_S200x3_o0_2_S200x1) broadcasts_S200x1_S200x128 (ix2 p q) = A (ix2 p (2 : Fin 3)) :=
    wcol_apply A 2 (by decide) _ p q
  unfold kOut
  rw [mulf_apply, addf_apply, addf_apply, mulf_apply, mulf_apply, mulf_apply, broadcast_apply,
    w0, w1, w2, hA p 0, hA p 1, hA p 2, hL p q, hH p q, hM p q]
  rw [Cert.ReferenceIdeal.Read.val_main_v44_apply, Cert.ReferenceIdeal.Read.val_main_v43_apply, Cert.ReferenceIdeal.Read.val_main_cst_5_apply, Cert.ReferenceIdeal.Read.val_main_v42_apply, Cert.ReferenceIdeal.Read.val_main_v39_apply,
    Cert.ReferenceIdeal.Read.val_main_v36_apply, Cert.ReferenceIdeal.Read.val_main_v38_apply, Cert.ReferenceIdeal.Read.val_main_v41_apply, Cert.ReferenceIdeal.Read.val_main_v35_apply, Cert.ReferenceIdeal.Read.val_main_v37_apply,
    Cert.ReferenceIdeal.Read.val_main_v40_apply, Cert.ReferenceIdeal.Read.val_main_v32_apply, Cert.ReferenceIdeal.Read.val_main_v33_apply, Cert.ReferenceIdeal.Read.val_main_v34_apply]
  have e0 : Cert.ReferenceIdeal.Read.idx_main_v32 (Cert.ReferenceIdeal.Read.idx_main_v35 (ix2 (rowIdx t p) q)) = ix2 (rowIdx t p) (0 : Fin 3) :=
    funext fun a => Fin.ext (by match a with | ⟨0, _⟩ => rfl | ⟨1, _⟩ => rfl)
  have e1 : Cert.ReferenceIdeal.Read.idx_main_v33 (Cert.ReferenceIdeal.Read.idx_main_v37 (ix2 (rowIdx t p) q)) = ix2 (rowIdx t p) (1 : Fin 3) :=
    funext fun a => Fin.ext (by match a with | ⟨0, _⟩ => rfl | ⟨1, _⟩ => rfl)
  have e2 : Cert.ReferenceIdeal.Read.idx_main_v34 (Cert.ReferenceIdeal.Read.idx_main_v40 (ix2 (rowIdx t p) q)) = ix2 (rowIdx t p) (2 : Fin 3) :=
    funext fun a => Fin.ext (by match a with | ⟨0, _⟩ => rfl | ⟨1, _⟩ => rfl)
  rw [e0, e1, e2]
  rfl

/-! ## The whole block -/

/-- What the body stores at a grid point, as a function of the scratch contents and of the blocks it loads. -/
def blockOut (s0 s1 : FVec Ideal Sx .f32) (xl xh : Fin 5 → FVec Ideal S40a .f32) (xrows : FVec Ideal S200w .f32)
    (WM : FVec Ideal Sw .f32) (CL CH CM : FVec Ideal S128t .f32) (AV : FVec Ideal S33 .f32) : FVec Ideal S200w .f32 :=
  Cert.KernelIdeal.Gen.k0_pay1 (F := Ideal) (Cert.KernelIdeal.Gen.k0_pay4 s0 (xl 0) (xl 1) (xl 2) (xl 3) (xl 4))
    (Cert.KernelIdeal.Gen.k0_pay8 s1 (Cert.KernelIdeal.Gen.k0_pay5 s1 (xh 0)) (Cert.KernelIdeal.Gen.k0_pay6 s1 (xh 1)) (Cert.KernelIdeal.Gen.k0_pay7 s1 (xh 2)) (xh 3) (xh 4))
    (Cert.KernelIdeal.Gen.k0_pay9 xrows WM)
    (Cert.KernelIdeal.Gen.k0_pay10 s1 (Cert.KernelIdeal.Gen.k0_pay4 s0 (xl 0) (xl 1) (xl 2) (xl 3) (xl 4)) (Cert.KernelIdeal.Gen.k0_pay5 s1 (xh 0)) (Cert.KernelIdeal.Gen.k0_pay6 s1 (xh 1)) (Cert.KernelIdeal.Gen.k0_pay7 s1 (xh 2)) (xh 3) (xh 4) xrows WM CL CH CM AV)
    (Cert.KernelIdeal.Gen.k0_pay11 s1 (Cert.KernelIdeal.Gen.k0_pay4 s0 (xl 0) (xl 1) (xl 2) (xl 3) (xl 4)) (Cert.KernelIdeal.Gen.k0_pay5 s1 (xh 0)) (Cert.KernelIdeal.Gen.k0_pay6 s1 (xh 1)) (Cert.KernelIdeal.Gen.k0_pay7 s1 (xh 2)) (xh 3) (xh 4) xrows WM CL CH CM AV)

/-- The body's arithmetic is the stages of this development, composed. -/
theorem blockOut_eq (s0 s1 : FVec Ideal Sx .f32) (xl xh : Fin 5 → FVec Ideal S40a .f32) (xrows : FVec Ideal S200w .f32)
    (WM : FVec Ideal Sw .f32) (CL CH CM : FVec Ideal S128t .f32) (AV : FVec Ideal S33 .f32) :
    blockOut s0 s1 xl xh xrows WM CL CH CM AV
      = (let OL := Cert.KernelIdeal.Gen.k0_pay4 (F := Ideal) s0 (xl 0) (xl 1) (xl 2) (xl 3) (xl 4)
         let OH := Cert.KernelIdeal.Gen.k0_pay8 (F := Ideal) s1 (Cert.KernelIdeal.Gen.k0_pay5 s1 (xh 0)) (Cert.KernelIdeal.Gen.k0_pay6 s1 (xh 1)) (Cert.KernelIdeal.Gen.k0_pay7 s1 (xh 2)) (xh 3) (xh 4)
         let OM := Cert.KernelIdeal.Gen.k0_pay9 (F := Ideal) xrows WM
         let L := kL (kS (kF OL OH OM CL CH CM)) AV
         kOut (kA L (kMx L)) OL OH OM) := rfl

theorem block_rows (xl xh : Fin 5 → FVec Ideal S40a .f32) (xrows : FVec Ideal S200w .f32)
    (hl : ∀ (s : Fin 5) (u : Fin 40) (n : Fin 10000) (hr : 200 * t.val + 40 * s.val + u.val < 10000),
      xl s (ix2 u n) = AL (ix2 ⟨200 * t.val + 40 * s.val + u.val, hr⟩ n))
    (hh : ∀ (s : Fin 5) (u : Fin 40) (n : Fin 10000) (hr : 200 * t.val + 40 * s.val + u.val < 10000),
      xh s (ix2 u n) = AH (ix2 ⟨200 * t.val + 40 * s.val + u.val, hr⟩ n))
    (hrows : RowsOf t xrows X) :
    RowsOf t (blockOut (Cert.ReferenceIdeal.Read.val_main_v0 (F := Ideal) X WL) (Cert.ReferenceIdeal.Read.val_main_v3 (F := Ideal) X WH) xl xh xrows WM
        (pad ![a6, zcol, zcol]) (pad ![zcol, a7, zcol]) (pad ![zcol, zcol, a8]) AV)
      (Cert.ReferenceIdeal.Read.val_main_v44 (F := Ideal) X AL AH WL WH WM a6 a7 a8 AV) := by
  rw [blockOut_eq]
  dsimp only
  have hL := aggL_rows X AL WL t xl hl
  have hH := aggH_row X AH WH t xh hh
  have hM := mlp_row X WM t xrows hrows
  have hF := feat_row X AL AH WL WH WM a6 a7 a8 t _ _ _ hL hH hM
  have hS := sig_row X AL AH WL WH WM a6 a7 a8 t _ hF
  have hLg := logit_row X AL AH WL WH WM a6 a7 a8 AV t _ hS
  have hMx := max_row X AL AH WL WH WM a6 a7 a8 AV t _ hLg
  have hA := att_row X AL AH WL WH WM a6 a7 a8 AV t _ _ hLg hMx
  exact out_row X AL AH WL WH WM a6 a7 a8 AV t _ _ _ _ hA hL hH hM

end Cert.Bridge

end
-- ==== Proof.KIValB.lean ====
/-
  The kernel's result array is the reference's function of the argument arrays.

  Every grid point writes back one block of 200 rows, the blocks tile the 10000 rows, and the block of point t is rows
  200·t … 200·t + 199 of the reference's result: the point's five stripes of each adjacency matrix are those rows of
  the matrix, the 200 rows of x it loads are those rows of x, the other windows are whole arrays (the three padded
  attention matrices as the host operations before the region built them), and the scratch buffers hold the two
  projections of the whole x. So after the run the result array holds the reference's result, index by index.
-/
import proofs.«129832_g4337916969350_cont_sun_m_394_15_alg».proof.Proof.KIValA
import proofs.«129832_g4337916969350_cont_sun_m_394_15_alg».proof.Proof.StOut
import Idealize.ShloMosaic.Lib.StableHlo.Run

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Fr
open Cert.Bridge (RowsOf rowIdx pad zcol)

variable (m : (ℓ : Loc nD τ sig) → Buf (Elt Ideal) ℓ) (ρ : Dev nD → PrngReg)

/-! ## Where the windows sit, decided over the grid -/

theorem idx_0 : ∀ t : Fin cfg0.N, win0_0.index t (0 : Fin 2) = 5 * t.val + 0 ∧ win0_0.index t (1 : Fin 2) = 0 :=
  (by decide +kernel : ∀ t : Fin grid0.N, win0_0.index t (0 : Fin 2) = 5 * t.val + 0 ∧ win0_0.index t (1 : Fin 2) = 0)
theorem idx_1 : ∀ t : Fin cfg0.N, win0_1.index t (0 : Fin 2) = 5 * t.val + 1 ∧ win0_1.index t (1 : Fin 2) = 0 :=
  (by decide +kernel : ∀ t : Fin grid0.N, win0_1.index t (0 : Fin 2) = 5 * t.val + 1 ∧ win0_1.index t (1 : Fin 2) = 0)
theorem idx_2 : ∀ t : Fin cfg0.N, win0_2.index t (0 : Fin 2) = 5 * t.val + 2 ∧ win0_2.index t (1 : Fin 2) = 0 :=
  (by decide +kernel : ∀ t : Fin grid0.N, win0_2.index t (0 : Fin 2) = 5 * t.val + 2 ∧ win0_2.index t (1 : Fin 2) = 0)
theorem idx_3 : ∀ t : Fin cfg0.N, win0_3.index t (0 : Fin 2) = 5 * t.val + 3 ∧ win0_3.index t (1 : Fin 2) = 0 :=
  (by decide +kernel : ∀ t : Fin grid0.N, win0_3.index t (0 : Fin 2) = 5 * t.val + 3 ∧ win0_3.index t (1 : Fin 2) = 0)
theorem idx_4 : ∀ t : Fin cfg0.N, win0_4.index t (0 : Fin 2) = 5 * t.val + 4 ∧ win0_4.index t (1 : Fin 2) = 0 :=
  (by decide +kernel : ∀ t : Fin grid0.N, win0_4.index t (0 : Fin 2) = 5 * t.val + 4 ∧ win0_4.index t (1 : Fin 2) = 0)
theorem idx_5 : ∀ t : Fin cfg0.N, win0_5.index t (0 : Fin 2) = 5 * t.val + 0 ∧ win0_5.index t (1 : Fin 2) = 0 :=
  (by decide +kernel : ∀ t : Fin grid0.N, win0_5.index t (0 : Fin 2) = 5 * t.val + 0 ∧ win0_5.index t (1 : Fin 2) = 0)
theorem idx_6 : ∀ t : Fin cfg0.N, win0_6.index t (0 : Fin 2) = 5 * t.val + 1 ∧ win0_6.index t (1 : Fin 2) = 0 :=
  (by decide +kernel : ∀ t : Fin grid0.N, win0_6.index t (0 : Fin 2) = 5 * t.val + 1 ∧ win0_6.index t (1 : Fin 2) = 0)
theorem idx_7 : ∀ t : Fin cfg0.N, win0_7.index t (0 : Fin 2) = 5 * t.val + 2 ∧ win0_7.index t (1 : Fin 2) = 0 :=
  (by decide +kernel : ∀ t : Fin grid0.N, win0_7.index t (0 : Fin 2) = 5 * t.val + 2 ∧ win0_7.index t (1 : Fin 2) = 0)
theorem idx_8 : ∀ t : Fin cfg0.N, win0_8.index t (0 : Fin 2) = 5 * t.val + 3 ∧ win0_8.index t (1 : Fin 2) = 0 :=
  (by decide +kernel : ∀ t : Fin grid0.N, win0_8.index t (0 : Fin 2) = 5 * t.val + 3 ∧ win0_8.index t (1 : Fin 2) = 0)
theorem idx_9 : ∀ t : Fin cfg0.N, win0_9.index t (0 : Fin 2) = 5 * t.val + 4 ∧ win0_9.index t (1 : Fin 2) = 0 :=
  (by decide +kernel : ∀ t : Fin grid0.N, win0_9.index t (0 : Fin 2) = 5 * t.val + 4 ∧ win0_9.index t (1 : Fin 2) = 0)
theorem idx_10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx_11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
theorem idx_12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
theorem idx_13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)
theorem idx_14 : ∀ t : Fin cfg0.N, win0_14.index t (0 : Fin 2) = 0 ∧ win0_14.index t (1 : Fin 2) = 0 :=
  (by decide +kernel : ∀ t : Fin grid0.N, win0_14.index t (0 : Fin 2) = 0 ∧ win0_14.index t (1 : Fin 2) = 0)
theorem idx_15 : ∀ t : Fin cfg0.N, win0_15.index t (0 : Fin 2) = 0 ∧ win0_15.index t (1 : Fin 2) = 0 :=
  (by decide +kernel : ∀ t : Fin grid0.N, win0_15.index t (0 : Fin 2) = 0 ∧ win0_15.index t (1 : Fin 2) = 0)
theorem idx_16 : ∀ t : Fin cfg0.N, win0_16.index t (0 : Fin 2) = 0 ∧ win0_16.index t (1 : Fin 2) = 0 :=
  (by decide +kernel : ∀ t : Fin grid0.N, win0_16.index t (0 : Fin 2) = 0 ∧ win0_16.index t (1 : Fin 2) = 0)
theorem idx_17 : ∀ t : Fin cfg0.N, win0_17.index t (0 : Fin 2) = 0 ∧ win0_17.index t (1 : Fin 2) = 0 :=
  (by decide +kernel : ∀ t : Fin grid0.N, win0_17.index t (0 : Fin 2) = 0 ∧ win0_17.index t (1 : Fin 2) = 0)
theorem idx_18 : ∀ t : Fin cfg0.N, win0_18.index t (0 : Fin 2) = t.val ∧ win0_18.index t (1 : Fin 2) = 0 :=
  (by decide +kernel : ∀ t : Fin grid0.N, win0_18.index t (0 : Fin 2) = t.val ∧ win0_18.index t (1 : Fin 2) = 0)
/-- The 200 rows of x the body loads at point t start at row 200·t. -/
theorem off_facts : ∀ t : Fin cfg0.N, k0_off1 (grid0.coords t) (0 : Fin 2) = 200 * t.val ∧ k0_off1 (grid0.coords t) (1 : Fin 2) = 0 :=
  (by decide +kernel : ∀ t : Fin grid0.N, k0_off1 (grid0.coords t) (0 : Fin 2) = 200 * t.val ∧ k0_off1 (grid0.coords t) (1 : Fin 2) = 0)

/-- A grid point as a number below 50. -/
def tt (t : Fin cfg0.N) : Fin 50 := ⟨t.val, lt_of_lt_of_eq t.isLt N_0⟩

/-! ## The three padded attention matrices the host operations build -/

theorem V_main_v1 (c : Dev nD) : (V m c main_v1 : S128x3.Idx → EReal) = pad ![m ((c : Thread nD τ).loc main_arg6), zcol, zcol] := by
  dsimp only [V, V0]; simp only [hostOps0, List.flatten_cons, List.flatten_nil, List.append_nil]; after_results <;> rfl
theorem V_main_v2 (c : Dev nD) : (V m c main_v2 : S128x3.Idx → EReal) = pad ![zcol, m ((c : Thread nD τ).loc main_arg7), zcol] := by
  dsimp only [V, V0]; simp only [hostOps0, List.flatten_cons, List.flatten_nil, List.append_nil]; after_results <;> rfl
theorem V_main_v3 (c : Dev nD) : (V m c main_v3 : S128x3.Idx → EReal) = pad ![zcol, zcol, m ((c : Thread nD τ).loc main_arg8)] := by
  dsimp only [V, V0]; simp only [hostOps0, List.flatten_cons, List.flatten_nil, List.append_nil]; after_results <;> rfl

/-! ## The input blocks -/

theorem stripe_0 (c : Dev nD) (t : Fin cfg0.N) (u : Fin 40) (n : Fin 10000) (hr : 200 * t.val + 40 * 0 + u.val < 10000) :
    (iblk m c 0 t : Vec Ideal S40x10000 .f32) (ix2 u n) = m ((c : Thread nD τ).loc main_arg1) (ix2 ⟨200 * t.val + 40 * 0 + u.val, hr⟩ n) := by
  unfold iblk
  rw [View.read_apply]
  show V m c main_arg1 _ = _
  rw [V_main_arg1]
  refine congrArg _ (funext fun a => Fin.ext ?_)
  match a with
  | ⟨0, _⟩ => show win0_0.index t (0 : Fin 2) * 40 + 1 * u.val = 200 * t.val + 40 * 0 + u.val; rw [(idx_0 t).1]; omega
  | ⟨1, _⟩ => show win0_0.index t (1 : Fin 2) * 10000 + 1 * n.val = n.val; rw [(idx_0 t).2]; omega
theorem stripe_1 (c : Dev nD) (t : Fin cfg0.N) (u : Fin 40) (n : Fin 10000) (hr : 200 * t.val + 40 * 1 + u.val < 10000) :
    (iblk m c 1 t : Vec Ideal S40x10000 .f32) (ix2 u n) = m ((c : Thread nD τ).loc main_arg1) (ix2 ⟨200 * t.val + 40 * 1 + u.val, hr⟩ n) := by
  unfold iblk
  rw [View.read_apply]
  show V m c main_arg1 _ = _
  rw [V_main_arg1]
  refine congrArg _ (funext fun a => Fin.ext ?_)
  match a with
  | ⟨0, _⟩ => show win0_1.index t (0 : Fin 2) * 40 + 1 * u.val = 200 * t.val + 40 * 1 + u.val; rw [(idx_1 t).1]; omega
  | ⟨1, _⟩ => show win0_1.index t (1 : Fin 2) * 10000 + 1 * n.val = n.val; rw [(idx_1 t).2]; omega
theorem stripe_2 (c : Dev nD) (t : Fin cfg0.N) (u : Fin 40) (n : Fin 10000) (hr : 200 * t.val + 40 * 2 + u.val < 10000) :
    (iblk m c 2 t : Vec Ideal S40x10000 .f32) (ix2 u n) = m ((c : Thread nD τ).loc main_arg1) (ix2 ⟨200 * t.val + 40 * 2 + u.val, hr⟩ n) := by
  unfold iblk
  rw [View.read_apply]
  show V m c main_arg1 _ = _
  rw [V_main_arg1]
  refine congrArg _ (funext fun a => Fin.ext ?_)
  match a with
  | ⟨0, _⟩ => show win0_2.index t (0 : Fin 2) * 40 + 1 * u.val = 200 * t.val + 40 * 2 + u.val; rw [(idx_2 t).1]; omega
  | ⟨1, _⟩ => show win0_2.index t (1 : Fin 2) * 10000 + 1 * n.val = n.val; rw [(idx_2 t).2]; omega
theorem stripe_3 (c : Dev nD) (t : Fin cfg0.N) (u : Fin 40) (n : Fin 10000) (hr : 200 * t.val + 40 * 3 + u.val < 10000) :
    (iblk m c 3 t : Vec Ideal S40x10000 .f32) (ix2 u n) = m ((c : Thread nD τ).loc main_arg1) (ix2 ⟨200 * t.val + 40 * 3 + u.val, hr⟩ n) := by
  unfold iblk
  rw [View.read_apply]
  show V m c main_arg1 _ = _
  rw [V_main_arg1]
  refine congrArg _ (funext fun a => Fin.ext ?_)
  match a with
  | ⟨0, _⟩ => show win0_3.index t (0 : Fin 2) * 40 + 1 * u.val = 200 * t.val + 40 * 3 + u.val; rw [(idx_3 t).1]; omega
  | ⟨1, _⟩ => show win0_3.index t (1 : Fin 2) * 10000 + 1 * n.val = n.val; rw [(idx_3 t).2]; omega
theorem stripe_4 (c : Dev nD) (t : Fin cfg0.N) (u : Fin 40) (n : Fin 10000) (hr : 200 * t.val + 40 * 4 + u.val < 10000) :
    (iblk m c 4 t : Vec Ideal S40x10000 .f32) (ix2 u n) = m ((c : Thread nD τ).loc main_arg1) (ix2 ⟨200 * t.val + 40 * 4 + u.val, hr⟩ n) := by
  unfold iblk
  rw [View.read_apply]
  show V m c main_arg1 _ = _
  rw [V_main_arg1]
  refine congrArg _ (funext fun a => Fin.ext ?_)
  match a with
  | ⟨0, _⟩ => show win0_4.index t (0 : Fin 2) * 40 + 1 * u.val = 200 * t.val + 40 * 4 + u.val; rw [(idx_4 t).1]; omega
  | ⟨1, _⟩ => show win0_4.index t (1 : Fin 2) * 10000 + 1 * n.val = n.val; rw [(idx_4 t).2]; omega
theorem stripe_5 (c : Dev nD) (t : Fin cfg0.N) (u : Fin 40) (n : Fin 10000) (hr : 200 * t.val + 40 * 0 + u.val < 10000) :
    (iblk m c 5 t : Vec Ideal S40x10000 .f32) (ix2 u n) = m ((c : Thread nD τ).loc main_arg2) (ix2 ⟨200 * t.val + 40 * 0 + u.val, hr⟩ n) := by
  unfold iblk
  rw [View.read_apply]
  show V m c main_arg2 _ = _
  rw [V_main_arg2]
  refine congrArg _ (funext fun a => Fin.ext ?_)
  match a with
  | ⟨0, _⟩ => show win0_5.index t (0 : Fin 2) * 40 + 1 * u.val = 200 * t.val + 40 * 0 + u.val; rw [(idx_5 t).1]; omega
  | ⟨1, _⟩ => show win0_5.index t (1 : Fin 2) * 10000 + 1 * n.val = n.val; rw [(idx_5 t).2]; omega
theorem stripe_6 (c : Dev nD) (t : Fin cfg0.N) (u : Fin 40) (n : Fin 10000) (hr : 200 * t.val + 40 * 1 + u.val < 10000) :
    (iblk m c 6 t : Vec Ideal S40x10000 .f32) (ix2 u n) = m ((c : Thread nD τ).loc main_arg2) (ix2 ⟨200 * t.val + 40 * 1 + u.val, hr⟩ n) := by
  unfold iblk
  rw [View.read_apply]
  show V m c main_arg2 _ = _
  rw [V_main_arg2]
  refine congrArg _ (funext fun a => Fin.ext ?_)
  match a with
  | ⟨0, _⟩ => show win0_6.index t (0 : Fin 2) * 40 + 1 * u.val = 200 * t.val + 40 * 1 + u.val; rw [(idx_6 t).1]; omega
  | ⟨1, _⟩ => show win0_6.index t (1 : Fin 2) * 10000 + 1 * n.val = n.val; rw [(idx_6 t).2]; omega
theorem stripe_7 (c : Dev nD) (t : Fin cfg0.N) (u : Fin 40) (n : Fin 10000) (hr : 200 * t.val + 40 * 2 + u.val < 10000) :
    (iblk m c 7 t : Vec Ideal S40x10000 .f32) (ix2 u n) = m ((c : Thread nD τ).loc main_arg2) (ix2 ⟨200 * t.val + 40 * 2 + u.val, hr⟩ n) := by
  unfold iblk
  rw [View.read_apply]
  show V m c main_arg2 _ = _
  rw [V_main_arg2]
  refine congrArg _ (funext fun a => Fin.ext ?_)
  match a with
  | ⟨0, _⟩ => show win0_7.index t (0 : Fin 2) * 40 + 1 * u.val = 200 * t.val + 40 * 2 + u.val; rw [(idx_7 t).1]; omega
  | ⟨1, _⟩ => show win0_7.index t (1 : Fin 2) * 10000 + 1 * n.val = n.val; rw [(idx_7 t).2]; omega
theorem stripe_8 (c : Dev nD) (t : Fin cfg0.N) (u : Fin 40) (n : Fin 10000) (hr : 200 * t.val + 40 * 3 + u.val < 10000) :
    (iblk m c 8 t : Vec Ideal S40x10000 .f32) (ix2 u n) = m ((c : Thread nD τ).loc main_arg2) (ix2 ⟨200 * t.val + 40 * 3 + u.val, hr⟩ n) := by
  unfold iblk
  rw [View.read_apply]
  show V m c main_arg2 _ = _
  rw [V_main_arg2]
  refine congrArg _ (funext fun a => Fin.ext ?_)
  match a with
  | ⟨0, _⟩ => show win0_8.index t (0 : Fin 2) * 40 + 1 * u.val = 200 * t.val + 40 * 3 + u.val; rw [(idx_8 t).1]; omega
  | ⟨1, _⟩ => show win0_8.index t (1 : Fin 2) * 10000 + 1 * n.val = n.val; rw [(idx_8 t).2]; omega
theorem stripe_9 (c : Dev nD) (t : Fin cfg0.N) (u : Fin 40) (n : Fin 10000) (hr : 200 * t.val + 40 * 4 + u.val < 10000) :
    (iblk m c 9 t : Vec Ideal S40x10000 .f32) (ix2 u n) = m ((c : Thread nD τ).loc main_arg2) (ix2 ⟨200 * t.val + 40 * 4 + u.val, hr⟩ n) := by
  unfold iblk
  rw [View.read_apply]
  show V m c main_arg2 _ = _
  rw [V_main_arg2]
  refine congrArg _ (funext fun a => Fin.ext ?_)
  match a with
  | ⟨0, _⟩ => show win0_9.index t (0 : Fin 2) * 40 + 1 * u.val = 200 * t.val + 40 * 4 + u.val; rw [(idx_9 t).1]; omega
  | ⟨1, _⟩ => show win0_9.index t (1 : Fin 2) * 10000 + 1 * n.val = n.val; rw [(idx_9 t).2]; omega
theorem whole_10 (c : Dev nD) (t : Fin cfg0.N) : (iblk m c 10 t : Vec Ideal S10000x128 .f32) = V m c main_arg0 := by
  funext y
  unfold iblk
  rw [View.read_apply]
  show V m c main_arg0 _ = V m c main_arg0 y
  refine congrArg _ (funext fun a => Fin.ext ?_)
  match a with
  | ⟨0, _⟩ => show win0_10.index t (0 : Fin 2) * 10000 + 1 * (y 0).val = (y 0).val; rw [(idx_10 t).1]; omega
  | ⟨1, _⟩ => show win0_10.index t (1 : Fin 2) * 128 + 1 * (y 1).val = (y 1).val; rw [(idx_10 t).2]; omega
theorem whole_11 (c : Dev nD) (t : Fin cfg0.N) : (iblk m c 11 t : Vec Ideal S128x128 .f32) = V m c main_arg3 := by
  funext y
  unfold iblk
  rw [View.read_apply]
  show V m c main_arg3 _ = V m c main_arg3 y
  refine congrArg _ (funext fun a => Fin.ext ?_)
  match a with
  | ⟨0, _⟩ => show win0_11.index t (0 : Fin 2) * 128 + 1 * (y 0).val = (y 0).val; rw [(idx_11 t).1]; omega
  | ⟨1, _⟩ => show win0_11.index t (1 : Fin 2) * 128 + 1 * (y 1).val = (y 1).val; rw [(idx_11 t).2]; omega
theorem whole_12 (c : Dev nD) (t : Fin cfg0.N) : (iblk m c 12 t : Vec Ideal S128x128 .f32) = V m c main_arg4 := by
  funext y
  unfold iblk
  rw [View.read_apply]
  show V m c main_arg4 _ = V m c main_arg4 y
  refine congrArg _ (funext fun a => Fin.ext ?_)
  match a with
  | ⟨0, _⟩ => show win0_12.index t (0 : Fin 2) * 128 + 1 * (y 0).val = (y 0).val; rw [(idx_12 t).1]; omega
  | ⟨1, _⟩ => show win0_12.index t (1 : Fin 2) * 128 + 1 * (y 1).val = (y 1).val; rw [(idx_12 t).2]; omega
theorem whole_13 (c : Dev nD) (t : Fin cfg0.N) : (iblk m c 13 t : Vec Ideal S128x128 .f32) = V m c main_arg5 := by
  funext y
  unfold iblk
  rw [View.read_apply]
  show V m c main_arg5 _ = V m c main_arg5 y
  refine congrArg _ (funext fun a => Fin.ext ?_)
  match a with
  | ⟨0, _⟩ => show win0_13.index t (0 : Fin 2) * 128 + 1 * (y 0).val = (y 0).val; rw [(idx_13 t).1]; omega
  | ⟨1, _⟩ => show win0_13.index t (1 : Fin 2) * 128 + 1 * (y 1).val = (y 1).val; rw [(idx_13 t).2]; omega
theorem whole_14 (c : Dev nD) (t : Fin cfg0.N) : (iblk m c 14 t : Vec Ideal S128x3 .f32) = V m c main_v1 := by
  funext y
  unfold iblk
  rw [View.read_apply]
  show V m c main_v1 _ = V m c main_v1 y
  refine congrArg _ (funext fun a => Fin.ext ?_)
  match a with
  | ⟨0, _⟩ => show win0_14.index t (0 : Fin 2) * 128 + 1 * (y 0).val = (y 0).val; rw [(idx_14 t).1]; omega
  | ⟨1, _⟩ => show win0_14.index t (1 : Fin 2) * 3 + 1 * (y 1).val = (y 1).val; rw [(idx_14 t).2]; omega
theorem whole_15 (c : Dev nD) (t : Fin cfg0.N) : (iblk m c 15 t : Vec Ideal S128x3 .f32) = V m c main_v2 := by
  funext y
  unfold iblk
  rw [View.read_apply]
  show V m c main_v2 _ = V m c main_v2 y
  refine congrArg _ (funext fun a => Fin.ext ?_)
  match a with
  | ⟨0, _⟩ => show win0_15.index t (0 : Fin 2) * 128 + 1 * (y 0).val = (y 0).val; rw [(idx_15 t).1]; omega
  | ⟨1, _⟩ => show win0_15.index t (1 : Fin 2) * 3 + 1 * (y 1).val = (y 1).val; rw [(idx_15 t).2]; omega
theorem whole_16 (c : Dev nD) (t : Fin cfg0.N) : (iblk m c 16 t : Vec Ideal S128x3 .f32) = V m c main_v3 := by
  funext y
  unfold iblk
  rw [View.read_apply]
  show V m c main_v3 _ = V m c main_v3 y
  refine congrArg _ (funext fun a => Fin.ext ?_)
  match a with
  | ⟨0, _⟩ => show win0_16.index t (0 : Fin 2) * 128 + 1 * (y 0).val = (y 0).val; rw [(idx_16 t).1]; omega
  | ⟨1, _⟩ => show win0_16.index t (1 : Fin 2) * 3 + 1 * (y 1).val = (y 1).val; rw [(idx_16 t).2]; omega
theorem whole_17 (c : Dev nD) (t : Fin cfg0.N) : (iblk m c 17 t : Vec Ideal S3x3 .f32) = V m c main_arg9 := by
  funext y
  unfold iblk
  rw [View.read_apply]
  show V m c main_arg9 _ = V m c main_arg9 y
  refine congrArg _ (funext fun a => Fin.ext ?_)
  match a with
  | ⟨0, _⟩ => show win0_17.index t (0 : Fin 2) * 3 + 1 * (y 0).val = (y 0).val; rw [(idx_17 t).1]; omega
  | ⟨1, _⟩ => show win0_17.index t (1 : Fin 2) * 3 + 1 * (y 1).val = (y 1).val; rw [(idx_17 t).2]; omega

/-- The 200 rows of x the body loads are rows 200·t … of x. -/
theorem xrows_rows (c : Dev nD) (t : Fin cfg0.N) :
    RowsOf (tt t) (xrowsOf (grid0.coords t) (iblk m c 10 t)) (m ((c : Thread nD τ).loc main_arg0)) := by
  intro p k
  rw [whole_10, V_main_arg0]
  unfold xrowsOf
  show m ((c : Thread nD τ).loc main_arg0) ((Rect.unit (s := S10000x128) (k0_off1 (grid0.coords t)) S200x128.size (k0_off1_inb _)).emb (ix2 p k)) = _
  refine congrArg _ (funext fun a => Fin.ext ?_)
  match a with
  | ⟨0, _⟩ => show k0_off1 (grid0.coords t) (0 : Fin 2) + 1 * p.val = 200 * t.val + p.val; rw [(off_facts t).1]; omega
  | ⟨1, _⟩ => show k0_off1 (grid0.coords t) (1 : Fin 2) + 1 * k.val = k.val; rw [(off_facts t).2]; omega

/-! ## One block -/

/-- The reference's result as a function of the kernel's argument arrays. -/
abbrev G (c : Dev nD) : S10000x128.Idx → EReal :=
  Cert.ReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

set_option maxHeartbeats 1600000 in
/-- The block point t stores is rows 200·t … 200·t + 199 of the reference's result. -/
theorem blk_rows (c : Dev nD) (t : Fin cfg0.N) :
    RowsOf (tt t) (blockVal (S0 m c) (S1 m c) (iblk m c 0 t) (iblk m c 1 t) (iblk m c 2 t) (iblk m c 3 t) (iblk m c 4 t) (iblk m c 5 t) (iblk m c 6 t) (iblk m c 7 t) (iblk m c 8 t) (iblk m c 9 t) (xrowsOf (grid0.coords t) (iblk m c 10 t)) (iblk m c 13 t) (iblk m c 14 t) (iblk m c 15 t) (iblk m c 16 t) (iblk m c 17 t))
      (G m c) := by
  have hl : ∀ (s : Fin 5) (u : Fin 40) (n : Fin 10000) (hr : 200 * (tt t).val + 40 * s.val + u.val < 10000),
      (![iblk m c 0 t, iblk m c 1 t, iblk m c 2 t, iblk m c 3 t, iblk m c 4 t] : Fin 5 → FVec Ideal S40x10000 .f32) s (ix2 u n)
        = (m ((c : Thread nD τ).loc main_arg1)) (ix2 ⟨200 * (tt t).val + 40 * s.val + u.val, hr⟩ n) := by
    intro s u n hr
    fin_cases s
    · exact stripe_0 m c t u n hr
    · exact stripe_1 m c t u n hr
    · exact stripe_2 m c t u n hr
    · exact stripe_3 m c t u n hr
    · exact stripe_4 m c t u n hr
  have hh : ∀ (s : Fin 5) (u : Fin 40) (n : Fin 10000) (hr : 200 * (tt t).val + 40 * s.val + u.val < 10000),
      (![iblk m c 5 t, iblk m c 6 t, iblk m c 7 t, iblk m c 8 t, iblk m c 9 t] : Fin 5 → FVec Ideal S40x10000 .f32) s (ix2 u n)
        = (m ((c : Thread nD τ).loc main_arg2)) (ix2 ⟨200 * (tt t).val + 40 * s.val + u.val, hr⟩ n) := by
    intro s u n hr
    fin_cases s
    · exact stripe_5 m c t u n hr
    · exact stripe_6 m c t u n hr
    · exact stripe_7 m c t u n hr
    · exact stripe_8 m c t u n hr
    · exact stripe_9 m c t u n hr
  have h := Cert.Bridge.block_rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tt t)
    ![iblk m c 0 t, iblk m c 1 t, iblk m c 2 t, iblk m c 3 t, iblk m c 4 t] ![iblk m c 5 t, iblk m c 6 t, iblk m c 7 t, iblk m c 8 t, iblk m c 9 t]
    (xrowsOf (grid0.coords t) (iblk m c 10 t)) hl hh (xrows_rows m c t)
  rw [S0_eq, S1_eq, whole_10 m c t0, whole_11 m c t0, whole_12 m c t0, V_main_arg0 m c, V_main_arg3 m c, V_main_arg4 m c,
    Cert.Bridge.projL_eq, Cert.Bridge.projH_eq,
    whole_13 m c t, whole_14 m c t, whole_15 m c t, whole_16 m c t, whole_17 m c t, V_main_arg5 m c, V_main_v1 m c, V_main_v2 m c, V_main_v3 m c, V_main_arg9 m c]
  exact h

/-! ## The result array -/

/-- WHAT POINT t WRITES BACK is block t of the reference's result. -/
theorem flushed_eq (c : Dev nD) (t : Fin cfg0.N) :
    (dats m 0 c).flushed 18 t = ((cfg0.win 18).blk t).view.read (Elt Ideal) (G m c) := by
  show (cfg0.win 18).cut (grid0.coords t) ((dats m 0 c).after 18 t) = _
  rw [after18, out18_eq]
  funext j
  obtain ⟨p, q, rfl⟩ : ∃ (p : Fin 200) (q : Fin 128), j = ix2 p q := ⟨j 0, j 1, eq_ix2 j⟩
  rw [View.read_apply]
  have hj : ((cfg0.win 18).blk t).view.emb (ix2 p q) = ix2 (rowIdx (tt t) p) q := by
    funext a; apply Fin.ext
    match a with
    | ⟨0, _⟩ => show win0_18.index t (0 : Fin 2) * 200 + 1 * p.val = 200 * t.val + p.val; rw [(idx_18 t).1]; omega
    | ⟨1, _⟩ => show win0_18.index t (1 : Fin 2) * 128 + 1 * q.val = q.val; rw [(idx_18 t).2]; omega
  rw [hj]
  exact blk_rows m c t p q

/-- An index of the result array is in point t's block iff its row is among the block's 200 rows. -/
theorem mem_blk (t : Fin cfg0.N) (i : S10000x128.Idx) :
    i ∈ ((cfg0.win 18).blk t).view.set ↔ ∀ a : Fin 2, win0_18.index t a * S200x128.size a ≤ (i a).val ∧ (i a).val < win0_18.index t a * S200x128.size a + S200x128.size a := by
  show i ∈ ((View.whole main_v4).slice (win0_18.rect t)).set ↔ _
  rw [View.set_slice_whole, Rect.mem_set_unit]
  exact Iff.rfl

/-- The blocks tile the array, so it ends holding the reference's result. -/
theorem final (c : Dev nD) : (dats m 0 c).arrAt 18 cfg0.N = G m c :=
  (dats m 0 c).arrAt_eq_of_cover 18 (G m c) (fun t _ => flushed_eq m c t) fun i => by
    have hi0 : (i 0).val < 10000 := (i 0).isLt
    have hi1 : (i 1).val < 128 := (i 1).isLt
    have hT : (i 0).val / 200 < cfg0.N := lt_of_lt_of_eq (by omega : (i 0).val / 200 < 50) N_0.symm
    refine ⟨⟨(i 0).val / 200, hT⟩, flush0_18 _, ?_⟩
    rw [mem_blk]
    intro a
    match a with
    | ⟨0, _⟩ =>
      show win0_18.index ⟨(i 0).val / 200, hT⟩ (0 : Fin 2) * 200 ≤ (i 0).val ∧ (i 0).val < win0_18.index ⟨(i 0).val / 200, hT⟩ (0 : Fin 2) * 200 + 200
      rw [(idx_18 ⟨(i 0).val / 200, hT⟩).1]
      show (i 0).val / 200 * 200 ≤ (i 0).val ∧ (i 0).val < (i 0).val / 200 * 200 + 200
      omega
    | ⟨1, _⟩ =>
      show win0_18.index ⟨(i 0).val / 200, hT⟩ (1 : Fin 2) * 128 ≤ (i 1).val ∧ (i 1).val < win0_18.index ⟨(i 0).val / 200, hT⟩ (1 : Fin 2) * 128 + 128
      rw [(idx_18 ⟨(i 0).val / 200, hT⟩).2]
      omega

/-- THE RUN, READ: every weakly fair execution ends with the result array at the reference's function of the
    argument arrays and the argument arrays unchanged. -/
theorem run : θ_run defs (onTc (τ := τ) (main (F := Ideal))) ⟨m, fun _ => 0, ρ⟩ (fun r => ∀ c : Dev nD,
      r.2.mem ((c.tc : Thread nD τ).loc main_v4) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).1 18).trans (final m c),
    ((h c).1 10).trans (((dats m 0 c).arrAt_in 10 rfl _).trans ((A_eq m c 10).trans (V_main_arg0 m c))),
    ((h c).1 0).trans (((dats m 0 c).arrAt_in 0 rfl _).trans ((A_eq m c 0).trans (V_main_arg1 m c))),
    ((h c).1 5).trans (((dats m 0 c).arrAt_in 5 rfl _).trans ((A_eq m c 5).trans (V_main_arg2 m c))),
    ((h c).1 11).trans (((dats m 0 c).arrAt_in 11 rfl _).trans ((A_eq m c 11).trans (V_main_arg3 m c))),
    ((h c).1 12).trans (((dats m 0 c).arrAt_in 12 rfl _).trans ((A_eq m c 12).trans (V_main_arg4 m c))),
    ((h c).1 13).trans (((dats m 0 c).arrAt_in 13 rfl _).trans ((A_eq m c 13).trans (V_main_arg5 m c))),
    ((h c).2 main_arg6 (Pipeline.mem_restRefs_of main_arg6 rfl (by decide))).trans (V_main_arg6 m c),
    ((h c).2 main_arg7 (Pipeline.mem_restRefs_of main_arg7 rfl (by decide))).trans (V_main_arg7 m c),
    ((h c).2 main_arg8 (Pipeline.mem_restRefs_of main_arg8 rfl (by decide))).trans (V_main_arg8 m c),
    ((h c).1 17).trans (((dats m 0 c).arrAt_in 17 rfl _).trans ((A_eq m c 17).trans (V_main_arg9 m c)))⟩) (run_main m ρ)

end Cert.KernelIdeal.Val

end
-- ==== Proof.lean ====
/-
  A graph-convolution layer with three branches mixed by attention — out = 3 · (w₀ · relu(A_low · (x · W_low))
  + w₁ · relu(A_high · (x · W_high)) + w₂ · relu(x · W_mlp)), the weights w = softmax((sigmoid(features) · M) / 3) of the
  three per-row features relu(·) · a — computed by one kernel over 50 blocks of 200 rows against its plain reference.

  The kernel differs from the reference in three ways, none of which is seen on the extended reals:
    * it walks the rows in 50 blocks, each adjacency matrix read as five stripes of 40 rows per block, and stacks the
      stripes' products: row 40·s + u of the stack is row 200·t + 40·s + u of the whole product;
    * it computes x · W_low and x · W_high once, at the first block, into two scratch buffers that every block reads:
      the invariant carried from block to block says that after the first block they hold these two products;
    * it gets the three features as ONE sum of three [rows, 3] products with attention columns padded by zeros, where
      the reference puts three [rows, 1] products side by side: y · 0 = 0 and s + 0 = s hold for every extended real, so
      column c of the sum is the c-th product. (No finiteness of the inputs is needed anywhere.)
  The sigmoid the kernel applies as one operation is by definition 1 / (1 + e^(−x)), the reference's spelling; the
  temperature 3 and the factor 3 are the same literals on both sides; the softmax's maximum and sum over three entries
  are the same fold and the same sum.

  The two adjacency matrices reach the kernel through five windows each, so the kernel's frames are proved against the
  launch theorem for windows that share an array, each matrix's full share dealt among its five reading windows
  (KFrame for the program as printed, KIFrame for its idealization); the body is run once per control case (KRuns,
  KIRuns). The value of the result array is read off the same run (KIValA, KIValB) and identified with the reference's
  result stage by stage (StProj … StOut), over the reference's run and read-at-an-index lemmas.
-/
import proofs.«129832_g4337916969350_cont_sun_m_394_15_alg».proof.Defs
import proofs.«129832_g4337916969350_cont_sun_m_394_15_alg».proof.Proof.Gen.Kernel
import proofs.«129832_g4337916969350_cont_sun_m_394_15_alg».proof.Proof.Gen.KernelIdeal
import proofs.«129832_g4337916969350_cont_sun_m_394_15_alg».proof.Proof.Gen.ReferenceIdeal
import proofs.«129832_g4337916969350_cont_sun_m_394_15_alg».proof.Proof.Gen.Pre_finite_inputs
import proofs.«129832_g4337916969350_cont_sun_m_394_15_alg».proof.Proof.Gen.ReferenceIdeal.Run
import proofs.«129832_g4337916969350_cont_sun_m_394_15_alg».proof.Proof.Gen.ReferenceIdeal.Read
import proofs.«129832_g4337916969350_cont_sun_m_394_15_alg».proof.Proof.KFrame
import proofs.«129832_g4337916969350_cont_sun_m_394_15_alg».proof.Proof.KIValB
import Idealize.ShloMosaic.Adequacy
import Idealize.ShloMosaic.Init

noncomputable section

namespace Cert.Proof

open Idealize.ShloMosaic Idealize.SL.Sem

/-- The program as printed runs and leaves its arguments as they were. -/
theorem frame_k : Cert.frame_Kernel := fun m ρ _ => Cert.Kernel.Fr.frame m ρ

/-- So does its idealization. -/
theorem frame_ki : Cert.frame_KernelIdeal := fun m ρ _ => Cert.KernelIdeal.Fr.frame m ρ

/-- The reference is a straight line of host operations: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are one function of arguments that agree. -/
theorem algebraic : Cert.algebraic_KernelIdeal_ReferenceIdeal := by
  intro m ρ m' ρ' _ hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
